-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512x256x256 : Shape := ⟨3, ![512, 256, 256]⟩
abbrev S384x32 : Shape := ⟨2, ![384, 32]⟩
abbrev S384x128 : Shape := ⟨2, ![384, 128]⟩
abbrev S384 : Shape := ⟨1, ![384]⟩
abbrev S128x32 : Shape := ⟨2, ![128, 32]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S384x32 : S_.BroadcastsInDim S384x32 (![] : Fin 0 → Fin S384x32.rank)
  reducesTo_S384x32_S_d0_1 : S384x32.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S64x128 .f32) (main_arg10 : FVec F S64 .f32) (main_arg11 : FVec F S64x128 .f32) (main_arg12 : FVec F S64 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128x32 .f32) (main_arg7 : FVec F S128 .f32) (main_arg8 : FVec F S128x32 .f32) (main_arg9 : FVec F S64x128 .f32) (main_arg10 : FVec F S64 .f32) (main_arg11 : FVec F S64x128 .f32) (main_arg12 : FVec F S64 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S128x32 .f32 := Host.absf main_arg6
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x32 .f32 := Host.absf main_arg8
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg9 main_arg10 main_arg11 main_arg12 main_v33

def fn {F : FTy → Type} [FloatOps F] (main_arg0 : IVec S512x256 32) (main_arg1 : IVec S512x256x256 32) (main_arg2 : FVec F S384x32 .f32) (main_arg3 : FVec F S384x128 .f32) (main_arg4 : FVec F S384 .f32) (main_arg5 : FVec F S384 .f32) (main_arg6 : FVec F S128x32 .f32) (main_arg7 : FVec F S128 .f32) (main_arg8 : FVec F S128x32 .f32) (main_arg9 : FVec F S64x128 .f32) (main_arg10 : FVec F S64 .f32) (main_arg11 : FVec F S64x128 .f32) (main_arg12 : FVec F S64 .f32) : IVec S_ 1 :=
  let main_v0 : FVec F S384x32 .f32 := Host.absf main_arg2
  let main_cst : FVec F S_ .f32 := constant S_ .f32 0x7F800000#32
  let main_v1 : FVec F S384x32 .f32 := broadcastInDim S384x32 ![] bcast_S_S384x32 main_cst
  let main_v2 : IVec S384x32 1 := cmpf .olt main_v0 main_v1
  let main_c : IVec S_ 1 := constantI S_ 1 1#1
  let main_v3 : IVec S_ 1 := (fun x v => Host.reduce IntOp.andi x v reducesTo_S384x32_S_d0_1 h_S_) main_v2 main_c
  let main_v4 : FVec F S384x128 .f32 := Host.absf main_arg3
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S384 .f32 := Host.absf main_arg4
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384 .f32 := Host.absf main_arg5
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg6 main_arg7 main_arg8 main_arg9 main_arg10 main_arg11 main_arg12 main_v13 main_v16
-- ==== Kernel.lean ====
abbrev S512x256 : Shape := ⟨2, ![512, 256]⟩
abbrev S512x256x256 : Shape := ⟨3, ![512, 256, 256]⟩
abbrev S384x32 : Shape := ⟨2, ![384, 32]⟩
abbrev S384x128 : Shape := ⟨2, ![384, 128]⟩
abbrev S384 : Shape := ⟨1, ![384]⟩
abbrev S128x32 : Shape := ⟨2, ![128, 32]⟩
abbrev S128 : Shape := ⟨1, ![128]⟩
abbrev S64x128 : Shape := ⟨2, ![64, 128]⟩
abbrev S64 : Shape := ⟨1, ![64]⟩
abbrev S32x128 : Shape := ⟨2, ![32, 128]⟩
abbrev S1x128 : Shape := ⟨2, ![1, 128]⟩
abbrev S_ : Shape := ⟨0, ![]⟩
abbrev S32x384 : Shape := ⟨2, ![32, 384]⟩
abbrev S128x128 : Shape := ⟨2, ![128, 128]⟩
abbrev S512x128 : Shape := ⟨2, ![512, 128]⟩
abbrev S16x256 : Shape := ⟨2, ![16, 256]⟩
abbrev S16x256x256 : Shape := ⟨3, ![16, 256, 256]⟩
abbrev S16x128 : Shape := ⟨2, ![16, 128]⟩
abbrev S16x256x32 : Shape := ⟨3, ![16, 256, 32]⟩
abbrev S16x256x1 : Shape := ⟨3, ![16, 256, 1]⟩
abbrev S4096x32 : Shape := ⟨2, ![4096, 32]⟩
abbrev S4096x128 : Shape := ⟨2, ![4096, 128]⟩
abbrev S4096x384 : Shape := ⟨2, ![4096, 384]⟩
abbrev S1x384 : Shape := ⟨2, ![1, 384]⟩
abbrev S16x256x128 : Shape := ⟨3, ![16, 256, 128]⟩
abbrev S16x256x384 : Shape := ⟨3, ![16, 256, 384]⟩
abbrev S128x384 : Shape := ⟨2, ![128, 384]⟩
abbrev S512x64 : Shape := ⟨2, ![512, 64]⟩

abbrev nBuf : Space → Nat
  | .hbm => 35
  | .vmem => 13
  | .smem => 0
  | _ => 0

abbrev bufTy : (tb : Table) → Fin (tcTables nBuf tb) → BufTy
  | .hbm, ⟨0, _⟩ => ⟨S512x256, .i32⟩
  | .hbm, ⟨1, _⟩ => ⟨S512x256x256, .i32⟩
  | .hbm, ⟨2, _⟩ => ⟨S384x32, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S128x32, .f32⟩
  | .hbm, ⟨7, _⟩ => ⟨S128, .f32⟩
  | .hbm, ⟨8, _⟩ => ⟨S128x32, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S64, .f32⟩
  | .hbm, ⟨13, _⟩ => ⟨S32x128, .f32⟩
  | .hbm, ⟨14, _⟩ => ⟨S1x128, .f32⟩
  | .hbm, ⟨15, _⟩ => ⟨S32x128, .f32⟩
  | .hbm, ⟨16, _⟩ => ⟨S32x128, .f32⟩
  | .hbm, ⟨17, _⟩ => ⟨S32x128, .f32⟩
  | .hbm, ⟨18, _⟩ => ⟨S32x128, .f32⟩
  | .hbm, ⟨19, _⟩ => ⟨S_, .f32⟩
  | .hbm, ⟨20, _⟩ => ⟨S32x128, .f32⟩
  | .hbm, ⟨21, _⟩ => ⟨S32x128, .f32⟩
  | .hbm, ⟨22, _⟩ => ⟨S_, .f32⟩
  | .hbm, ⟨23, _⟩ => ⟨S32x128, .f32⟩
  | .hbm, ⟨24, _⟩ => ⟨S32x128, .f32⟩
  | .hbm, ⟨25, _⟩ => ⟨S32x128, .f32⟩
  | .hbm, ⟨26, _⟩ => ⟨S32x128, .f32⟩
  | .hbm, ⟨27, _⟩ => ⟨S32x128, .bf16⟩
  | .hbm, ⟨28, _⟩ => ⟨S32x384, .f32⟩
  | .hbm, ⟨29, _⟩ => ⟨S32x384, .bf16⟩
  | .hbm, ⟨30, _⟩ => ⟨S128x128, .f32⟩
  | .hbm, ⟨31, _⟩ => ⟨S128, .f32⟩
  | .hbm, ⟨32, _⟩ => ⟨S512x128, .f32⟩
  | .hbm, ⟨33, _⟩ => ⟨S512x64, .f32⟩
  | .hbm, ⟨34, _⟩ => ⟨S512x64, .f32⟩
  | .local _ .vmem, ⟨0, _⟩ => ⟨S16x256, .i32⟩
  | .local _ .vmem, ⟨1, _⟩ => ⟨S16x256, .i32⟩
  | .local _ .vmem, ⟨2, _⟩ => ⟨S16x256x256, .i32⟩
  | .local _ .vmem, ⟨3, _⟩ => ⟨S16x256x256, .i32⟩
  | .local _ .vmem, ⟨4, _⟩ => ⟨S32x128, .bf16⟩
  | .local _ .vmem, ⟨5, _⟩ => ⟨S32x384, .bf16⟩
  | .local _ .vmem, ⟨6, _⟩ => ⟨S384, .f32⟩
  | .local _ .vmem, ⟨7, _⟩ => ⟨S384x128, .f32⟩
  | .local _ .vmem, ⟨8, _⟩ => ⟨S384, .f32⟩
  | .local _ .vmem, ⟨9, _⟩ => ⟨S128x128, .f32⟩
  | .local _ .vmem, ⟨10, _⟩ => ⟨S128, .f32⟩
  | .local _ .vmem, ⟨11, _⟩ => ⟨S16x128, .f32⟩
  | .local _ .vmem, ⟨12, _⟩ => ⟨S16x128, .f32⟩
  | _, _ => ⟨S512x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S128x32_S32x128_1_0 : S128x32.Transposes [1, 0] S32x128
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  bitsLt_bf16_f32 : FTy.bits .bf16 < FTy.bits .f32
  transposes_S384x32_S32x384_1_0 : S384x32.Transposes [1, 0] S32x384
  concatenates_S64x128_S64x128_S128x128_d0 : Shape.Concatenates [S64x128, S64x128] S128x128 0
  concatenates_S64_S64_S128_d0 : Shape.Concatenates [S64, S64] S128 0
  inb_S16x256_S16x256_0_0 : ∀ a, (![0, 0] : Fin 2 → Nat) a + S16x256.size a ≤ S16x256.size a
  h_S16x256 : 0 < S16x256.numel
  iota_S16x256x32_d2_w32 : S16x256x32.Iotas .tc 32 [2]
  shapeCasts_S16x256_S16x256x1 : S16x256.ShapeCasts S16x256x1
  broadcasts_S16x256x1_S16x256x32 : S16x256x1.Broadcasts S16x256x32
  natLt_1_32 : 1 < 32
  shapeCasts_S16x256x32_S4096x32 : S16x256x32.ShapeCasts S4096x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x384_S32x384_0_0 : ∀ a, (![0, 0] : Fin 2 → Nat) a + S32x384.size a ≤ S32x384.size a
  h_S32x384 : 0 < S32x384.numel
  shapeCasts_S32x384_S32x384 : S32x384.ShapeCasts S32x384
  inb_S384_S384_0 : ∀ a, (![0] : Fin 1 → Nat) a + S384.size a ≤ S384.size a
  h_S384 : 0 < S384.numel
  shapeCasts_S384_S1x384 : S384.ShapeCasts S1x384
  broadcasts_S1x384_S4096x384 : S1x384.Broadcasts S4096x384
  shapeCasts_S4096x128_S16x256x128 : S4096x128.ShapeCasts S16x256x128
  shapeCasts_S4096x384_S16x256x384 : S4096x384.ShapeCasts S16x256x384
  inb_S16x256x256_S16x256x256_0_0_0 : ∀ a, (![0, 0, 0] : Fin 3 → Nat) a + S16x256x256.size a ≤ S16x256x256.size a
  h_S16x256x256 : 0 < S16x256x256.numel
  shapeCasts_S16x256x128_S4096x128 : S16x256x128.ShapeCasts S4096x128
  inb_S384x128_S384x128_0_0 : ∀ a, (![0, 0] : Fin 2 → Nat) a + S384x128.size a ≤ S384x128.size a
  h_S384x128 : 0 < S384x128.numel
  transposes_S384x128_p1_0_S128x384 : S384x128.Transposes [1, 0] S128x384
  slices_S16x256x384_o0_0_0_S16x256x128 : S16x256x384.Slices ![0, 0, 0] S16x256x128
  slices_S16x256x384_o0_0_128_S16x256x128 : S16x256x384.Slices ![0, 0, 128] S16x256x128
  slices_S16x256x384_o0_0_256_S16x256x128 : S16x256x384.Slices ![0, 0, 256] S16x256x128
  iota_S16x256x1_d1_w32 : S16x256x1.Iotas .tc 32 [1]
  broadcasts_S16x256x1_S16x256x128 : S16x256x1.Broadcasts S16x256x128
  reduces_S16x256x128_S16x128 : S16x256x128.Reduces [1] S16x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S16x128 : S1x128.Broadcasts S16x128
  inb_S16x128_S16x128_0_0 : ∀ a, (![0, 0] : Fin 2 → Nat) a + S16x128.size a ≤ S16x128.size a
  h_S16x128 : 0 < S16x128.numel
  slices_S512x128_S512x64_0_0 : S512x128.Slices ![0, 0] S512x64
  slices_S512x128_S512x64_0_64 : S512x128.Slices ![0, 64] S512x64
  dot_S4096x32_S32x128_S4096x128_1_0_0_1_n_n_wf : DotDims.WF S4096x32 S32x128 S4096x128 [1] [0] [0] [1] [] []
  dot_S4096x32_S32x384_S4096x384_1_0_0_1_n_n_wf : DotDims.WF S4096x32 S32x384 S4096x384 [1] [0] [0] [1] [] []
  dot_S16x256x256_S16x256x128_S16x256x128_1_1_2_2_0_0_wf : DotDims.WF S16x256x256 S16x256x128 S16x256x128 [1] [1] [2] [2] [0] [0]
  dot_S4096x128_S128x384_S4096x384_1_0_0_1_n_n_wf : DotDims.WF S4096x128 S128x384 S4096x384 [1] [0] [0] [1] [] []
  dot_S16x128_S128x128_S16x128_1_0_0_1_n_n_wf : DotDims.WF S16x128 S128x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S512x256.size a
  hwx0_0 : ∀ i : grid0.Coords, EltTy.bits .i32 = 32 ∨ (Rect.block (s := S512x256) S16x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S512x256x256.size a
  hwx0_1 : ∀ i : grid0.Coords, EltTy.bits .i32 = 32 ∨ (Rect.block (s := S512x256x256) S16x256x256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .bf16 = 32 ∨ (Rect.block (s := S32x128) S32x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x384.size a ≤ S32x384.size a
  hwx0_3 : ∀ i : grid0.Coords, EltTy.bits .bf16 = 32 ∨ (Rect.block (s := S32x384) S32x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x128.size a ≤ S384x128.size a
  hwx0_5 : ∀ i : grid0.Coords, EltTy.bits .f32 = 32 ∨ (Rect.block (s := S384x128) S384x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384.size a ≤ S384.size a
  hwx0_6 : ∀ i : grid0.Coords, EltTy.bits .f32 = 32 ∨ (Rect.block (s := S384) S384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x128.size a ≤ S512x128.size a
  hwx0_9 : ∀ i : grid0.Coords, EltTy.bits .f32 = 32 ∨ (Rect.block (s := S512x128) S16x128.size (cc0_transform_9 i) (hinb0_9 i)).WholeWords (EltTy.packing .f32)

variable [Facts₀]

def dot_S4096x32_S32x128_S4096x128_1_0_0_1_n_n : DotDims S4096x32 S32x128 S4096x128 where
  lhsContracting := [1]
  rhsContracting := [0]
  lhsNonContracting := [0]
  rhsNonContracting := [1]
  lhsBatch := []
  rhsBatch := []
  wf := dot_S4096x32_S32x128_S4096x128_1_0_0_1_n_n_wf
def dot_S4096x32_S32x384_S4096x384_1_0_0_1_n_n : DotDims S4096x32 S32x384 S4096x384 where
  lhsContracting := [1]
  rhsContracting := [0]
  lhsNonContracting := [0]
  rhsNonContracting := [1]
  lhsBatch := []
  rhsBatch := []
  wf := dot_S4096x32_S32x384_S4096x384_1_0_0_1_n_n_wf
def dot_S16x256x256_S16x256x128_S16x256x128_1_1_2_2_0_0 : DotDims S16x256x256 S16x256x128 S16x256x128 where
  lhsContracting := [1]
  rhsContracting := [1]
  lhsNonContracting := [2]
  rhsNonContracting := [2]
  lhsBatch := [0]
  rhsBatch := [0]
  wf := dot_S16x256x256_S16x256x128_S16x256x128_1_1_2_2_0_0_wf
def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf

abbrev win0_0 : Pipeline.Window sig grid0 :=
  Pipeline.Window.ofSpec (Memref.whole main_arg0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S32x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S384x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S16x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S512x256 : Shape := ⟨2, ![512, 256]⟩
abbrev S512x256x256 : Shape := ⟨3, ![512, 256, 256]⟩
abbrev S384x32 : Shape := ⟨2, ![384, 32]⟩
abbrev S384x128 : Shape := ⟨2, ![384, 128]⟩
abbrev S384 : Shape := ⟨1, ![384]⟩
abbrev S128x32 : Shape := ⟨2, ![128, 32]⟩
abbrev S128 : Shape := ⟨1, ![128]⟩
abbrev S64x128 : Shape := ⟨2, ![64, 128]⟩
abbrev S64 : Shape := ⟨1, ![64]⟩
abbrev S512x256x1 : Shape := ⟨3, ![512, 256, 1]⟩
abbrev S1x1x32 : Shape := ⟨3, ![1, 1, 32]⟩
abbrev S512x256x32 : Shape := ⟨3, ![512, 256, 32]⟩
abbrev S512x256x128 : Shape := ⟨3, ![512, 256, 128]⟩
abbrev S1x1x128 : Shape := ⟨3, ![1, 1, 128]⟩
abbrev S_ : Shape := ⟨0, ![]⟩
abbrev S512x256x384 : Shape := ⟨3, ![512, 256, 384]⟩
abbrev S1x1x384 : Shape := ⟨3, ![1, 1, 384]⟩
abbrev S512x254x128 : Shape := ⟨3, ![512, 254, 128]⟩
abbrev S512x128 : Shape := ⟨2, ![512, 128]⟩
abbrev S128x64 : Shape := ⟨2, ![128, 64]⟩
abbrev S512x64 : Shape := ⟨2, ![512, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S512x256, .i32⟩
  | .hbm, ⟨1, _⟩ => ⟨S512x256x256, .i32⟩
  | .hbm, ⟨2, _⟩ => ⟨S384x32, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S128x32, .f32⟩
  | .hbm, ⟨7, _⟩ => ⟨S128, .f32⟩
  | .hbm, ⟨8, _⟩ => ⟨S128x32, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S64, .f32⟩
  | .hbm, ⟨13, _⟩ => ⟨S512x256x1, .i32⟩
  | .hbm, ⟨14, _⟩ => ⟨S1x1x32, .i32⟩
  | .hbm, ⟨15, _⟩ => ⟨S512x256x32, .i32⟩
  | .hbm, ⟨16, _⟩ => ⟨S512x256x32, .i32⟩
  | .hbm, ⟨17, _⟩ => ⟨S512x256x32, .i1⟩
  | .hbm, ⟨18, _⟩ => ⟨S512x256x32, .f32⟩
  | .hbm, ⟨19, _⟩ => ⟨S512x256x128, .f32⟩
  | .hbm, ⟨20, _⟩ => ⟨S1x1x128, .f32⟩
  | .hbm, ⟨21, _⟩ => ⟨S512x256x128, .f32⟩
  | .hbm, ⟨22, _⟩ => ⟨S512x256x128, .f32⟩
  | .hbm, ⟨23, _⟩ => ⟨S512x256x128, .f32⟩
  | .hbm, ⟨24, _⟩ => ⟨S512x256x128, .f32⟩
  | .hbm, ⟨25, _⟩ => ⟨S_, .f32⟩
  | .hbm, ⟨26, _⟩ => ⟨S512x256x128, .f32⟩
  | .hbm, ⟨27, _⟩ => ⟨S512x256x128, .f32⟩
  | .hbm, ⟨28, _⟩ => ⟨S_, .f32⟩
  | .hbm, ⟨29, _⟩ => ⟨S512x256x128, .f32⟩
  | .hbm, ⟨30, _⟩ => ⟨S512x256x128, .f32⟩
  | .hbm, ⟨31, _⟩ => ⟨S512x256x128, .f32⟩
  | .hbm, ⟨32, _⟩ => ⟨S512x256x128, .f32⟩
  | .hbm, ⟨33, _⟩ => ⟨S512x256x256, .f32⟩
  | .hbm, ⟨34, _⟩ => ⟨S512x256x128, .f32⟩
  | .hbm, ⟨35, _⟩ => ⟨S512x256x384, .f32⟩
  | .hbm, ⟨36, _⟩ => ⟨S1x1x384, .f32⟩
  | .hbm, ⟨37, _⟩ => ⟨S512x256x384, .f32⟩
  | .hbm, ⟨38, _⟩ => ⟨S512x256x384, .f32⟩
  | .hbm, ⟨39, _⟩ => ⟨S512x256x384, .f32⟩
  | .hbm, ⟨40, _⟩ => ⟨S1x1x384, .f32⟩
  | .hbm, ⟨41, _⟩ => ⟨S512x256x384, .f32⟩
  | .hbm, ⟨42, _⟩ => ⟨S512x256x384, .f32⟩
  | .hbm, ⟨43, _⟩ => ⟨S512x256x128, .f32⟩
  | .hbm, ⟨44, _⟩ => ⟨S512x256x128, .f32⟩
  | .hbm, ⟨45, _⟩ => ⟨S512x256x128, .f32⟩
  | .hbm, ⟨46, _⟩ => ⟨S512x256x128, .f32⟩
  | .hbm, ⟨47, _⟩ => ⟨S512x256x128, .f32⟩
  | .hbm, ⟨48, _⟩ => ⟨S_, .f32⟩
  | .hbm, ⟨49, _⟩ => ⟨S512x256x128, .f32⟩
  | .hbm, ⟨50, _⟩ => ⟨S512x256x128, .f32⟩
  | .hbm, ⟨51, _⟩ => ⟨S_, .f32⟩
  | .hbm, ⟨52, _⟩ => ⟨S512x256x128, .f32⟩
  | .hbm, ⟨53, _⟩ => ⟨S512x256x128, .f32⟩
  | .hbm, ⟨54, _⟩ => ⟨S512x256x128, .f32⟩
  | .hbm, ⟨55, _⟩ => ⟨S512x256x128, .f32⟩
  | .hbm, ⟨56, _⟩ => ⟨S512x256x128, .f32⟩
  | .hbm, ⟨57, _⟩ => ⟨S512x256x128, .f32⟩
  | .hbm, ⟨58, _⟩ => ⟨S512x256x128, .f32⟩
  | .hbm, ⟨59, _⟩ => ⟨S_, .f32⟩
  | .hbm, ⟨60, _⟩ => ⟨S512x256x128, .f32⟩
  | .hbm, ⟨61, _⟩ => ⟨S512x256x128, .f32⟩
  | .hbm, ⟨62, _⟩ => ⟨S_, .f32⟩
  | .hbm, ⟨63, _⟩ => ⟨S512x256x128, .f32⟩
  | .hbm, ⟨64, _⟩ => ⟨S512x256x128, .f32⟩
  | .hbm, ⟨65, _⟩ => ⟨S512x256x128, .f32⟩
  | .hbm, ⟨66, _⟩ => ⟨S512x256x128, .f32⟩
  | .hbm, ⟨67, _⟩ => ⟨S512x256x128, .f32⟩
  | .hbm, ⟨68, _⟩ => ⟨S512x256x128, .f32⟩
  | .hbm, ⟨69, _⟩ => ⟨S512x256x128, .f32⟩
  | .hbm, ⟨70, _⟩ => ⟨S_, .f32⟩
  | .hbm, ⟨71, _⟩ => ⟨S512x256x128, .f32⟩
  | .hbm, ⟨72, _⟩ => ⟨S512x256x128, .f32⟩
  | .hbm, ⟨73, _⟩ => ⟨S512x256x128, .f32⟩
  | .hbm, ⟨74, _⟩ => ⟨S512x256x128, .f32⟩
  | .hbm, ⟨75, _⟩ => ⟨S512x256x128, .f32⟩
  | .hbm, ⟨76, _⟩ => ⟨S512x254x128, .f32⟩
  | .hbm, ⟨77, _⟩ => ⟨S_, .f32⟩
  | .hbm, ⟨78, _⟩ => ⟨S512x128, .f32⟩
  | .hbm, ⟨79, _⟩ => ⟨S128x64, .f32⟩
  | .hbm, ⟨80, _⟩ => ⟨S512x64, .f32⟩
  | .hbm, ⟨81, _⟩ => ⟨S1x64, .f32⟩
  | .hbm, ⟨82, _⟩ => ⟨S512x64, .f32⟩
  | .hbm, ⟨83, _⟩ => ⟨S512x64, .f32⟩
  | .hbm, ⟨84, _⟩ => ⟨S128x64, .f32⟩
  | .hbm, ⟨85, _⟩ => ⟨S512x64, .f32⟩
  | .hbm, ⟨86, _⟩ => ⟨S1x64, .f32⟩
  | .hbm, ⟨87, _⟩ => ⟨S512x64, .f32⟩
  | .hbm, ⟨88, _⟩ => ⟨S512x64, .f32⟩
  | _, _ => ⟨S512x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_1 : Ref sig .tc := ⟨.hbm, 48, rfl⟩
abbrev main_v28 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_3 : Ref sig .tc := ⟨.hbm, 59, rfl⟩
abbrev main_v37 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_5 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_6 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]

class Facts₀ : Prop where
  bcast_S512x256_S512x256x1_0_1 : S512x256.BroadcastsInDim S512x256x1 (![0, 1] : Fin 2 → Fin S512x256x1.rank)
  bcast_S512x256x1_S512x256x32_0_1_2 : S512x256x1.BroadcastsInDim S512x256x32 (![0, 1, 2] : Fin 3 → Fin S512x256x32.rank)
  bcast_S1x1x32_S512x256x32_0_1_2 : S1x1x32.BroadcastsInDim S512x256x32 (![0, 1, 2] : Fin 3 → Fin S512x256x32.rank)
  bcast_S128_S1x1x128_2 : S128.BroadcastsInDim S1x1x128 (![2] : Fin 1 → Fin S1x1x128.rank)
  bcast_S1x1x128_S512x256x128_0_1_2 : S1x1x128.BroadcastsInDim S512x256x128 (![0, 1, 2] : Fin 3 → Fin S512x256x128.rank)
  bcast_S_S512x256x128 : S_.BroadcastsInDim S512x256x128 (![] : Fin 0 → Fin S512x256x128.rank)
  bcast_S384_S1x1x384_2 : S384.BroadcastsInDim S1x1x384 (![2] : Fin 1 → Fin S1x1x384.rank)
  bcast_S1x1x384_S512x256x384_0_1_2 : S1x1x384.BroadcastsInDim S512x256x384 (![0, 1, 2] : Fin 3 → Fin S512x256x384.rank)
  slices_S512x256x384_S512x256x128_0_0_0 : S512x256x384.Slices ![0, 0, 0] S512x256x128
  slices_S512x256x384_S512x256x128_0_0_128 : S512x256x384.Slices ![0, 0, 128] S512x256x128
  slices_S512x256x384_S512x256x128_0_0_256 : S512x256x384.Slices ![0, 0, 256] S512x256x128
  slices_S512x256x128_S512x254x128_0_1_0 : S512x256x128.Slices ![0, 1, 0] S512x254x128
  reducesTo_S512x254x128_S512x128_d1 : S512x254x128.ReducesTo [1] S512x128
  h_S_ : 0 < S_.numel
  transposes_S64x128_S128x64_1_0 : S64x128.Transposes [1, 0] S128x64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  dot_S512x256x32_S128x32_S512x256x128_2_1_01_0_n_n_wf : DotDims.WF S512x256x32 S128x32 S512x256x128 [2] [1] [0, 1] [0] [] []
  dot_S512x256x256_S512x256x128_S512x256x128_1_1_2_2_0_0_wf : DotDims.WF S512x256x256 S512x256x128 S512x256x128 [1] [1] [2] [2] [0] [0]
  dot_S512x256x32_S384x32_S512x256x384_2_1_01_0_n_n_wf : DotDims.WF S512x256x32 S384x32 S512x256x384 [2] [1] [0, 1] [0] [] []
  dot_S512x256x128_S384x128_S512x256x384_2_1_01_0_n_n_wf : DotDims.WF S512x256x128 S384x128 S512x256x384 [2] [1] [0, 1] [0] [] []
  dot_S512x128_S128x64_S512x64_1_0_0_1_n_n_wf : DotDims.WF S512x128 S128x64 S512x64 [1] [0] [0] [1] [] []

variable [Facts₀]

def dot_S512x256x32_S128x32_S512x256x128_2_1_01_0_n_n : DotDims S512x256x32 S128x32 S512x256x128 where
  lhsContracting := [2]
  rhsContracting := [1]
  lhsNonContracting := [0, 1]
  rhsNonContracting := [0]
  lhsBatch := []
  rhsBatch := []
  wf := dot_S512x256x32_S128x32_S512x256x128_2_1_01_0_n_n_wf
def dot_S512x256x256_S512x256x128_S512x256x128_1_1_2_2_0_0 : DotDims S512x256x256 S512x256x128 S512x256x128 where
  lhsContracting := [1]
  rhsContracting := [1]
  lhsNonContracting := [2]
  rhsNonContracting := [2]
  lhsBatch := [0]
  rhsBatch := [0]
  wf := dot_S512x256x256_S512x256x128_S512x256x128_1_1_2_2_0_0_wf
def dot_S512x256x32_S384x32_S512x256x384_2_1_01_0_n_n : DotDims S512x256x32 S384x32 S512x256x384 where
  lhsContracting := [2]
  rhsContracting := [1]
  lhsNonContracting := [0, 1]
  rhsNonContracting := [0]
  lhsBatch := []
  rhsBatch := []
  wf := dot_S512x256x32_S384x32_S512x256x384_2_1_01_0_n_n_wf
def dot_S512x256x128_S384x128_S512x256x384_2_1_01_0_n_n : DotDims S512x256x128 S384x128 S512x256x384 where
  lhsContracting := [2]
  rhsContracting := [1]
  lhsNonContracting := [0, 1]
  rhsNonContracting := [0]
  lhsBatch := []
  rhsBatch := []
  wf := dot_S512x256x128_S384x128_S512x256x384_2_1_01_0_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

class Facts : Prop extends Facts₀ where

variable [Facts]
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.KStageA.lean ====
/-
  The kernel body's values at the extended reals, read entry by entry.

  A grid point works on 16 graphs of 256 vertices.  The body builds the one-hot type matrix of the
  16·256 vertices (row `p·256 + n` is vertex `n` of graph `p`), multiplies it into the two per-type
  tables, and contracts the adjacency block with the gated messages over the source vertex.  Here each
  of those values is written as a plain finite sum over its contraction index, at explicit coordinates.
-/
import proofs.«116194_j70265664963195_2_alg».proof.Proof.Gen.KernelIdeal.Skeleton
import proofs.«116194_j70265664963195_2_alg».proof.Proof.LibMatmulNN
import Idealize.ShloMosaic.Lib.Pipeline.Value
import Idealize.ShloMosaic.Lib.ValueIdx
import Idealize.ShloMosaic.PureOps.Ideal.Laws

noncomputable section

open scoped BigOperators

namespace Cert.KernelIdeal.Stages

open Idealize.ShloMosaic Idealize.ShloMosaic.ValueIdx Cert.KernelIdeal Cert.KernelIdeal.Gen

/-- Vertex `n` of graph `p` is row `p·256 + n` of the flattened block. -/
abbrev row (p : Fin 16) (n : Fin 256) : Fin 4096 := ⟨p.val * 256 + n.val, by omega⟩

/-- Flattening `[16, 256, c]` to `[4096, c]`: row `p·256 + n` is `(p, n)`. -/
theorem cast32 {α : Type} {c : Nat} (x : (⟨3, ![16, 256, c]⟩ : Shape).Idx → α)
    (h : (⟨3, ![16, 256, c]⟩ : Shape).ShapeCasts ⟨2, ![4096, c]⟩) (p : Fin 16) (n : Fin 256) (q : Fin c) :
    shapeCast ⟨2, ![4096, c]⟩ x h (ix2 (row p n) q) = x (ix3 p n q) :=
  shapeCast_apply x h _ _ (by rw [Shape.rowMajor_val_three, Shape.rowMajor_val_two]; rfl)

/-- Unflattening `[4096, c]` to `[16, 256, c]`. -/
theorem cast23 {α : Type} {c : Nat} (x : (⟨2, ![4096, c]⟩ : Shape).Idx → α)
    (h : (⟨2, ![4096, c]⟩ : Shape).ShapeCasts ⟨3, ![16, 256, c]⟩) (p : Fin 16) (n : Fin 256) (q : Fin c) :
    shapeCast ⟨3, ![16, 256, c]⟩ x h (ix3 p n q) = x (ix2 (row p n) q) :=
  shapeCast_apply x h _ _ (by rw [Shape.rowMajor_val_two, Shape.rowMajor_val_three]; rfl)

/-- A bias vector `[c]` laid along the rows of a `[4096, c]` block. -/
theorem biasRow {α : Type} {c : Nat} (hc : c ≠ 1) (x : (⟨1, ![c]⟩ : Shape).Idx → α)
    (h1 : (⟨1, ![c]⟩ : Shape).ShapeCasts ⟨2, ![1, c]⟩) (h2 : (⟨2, ![1, c]⟩ : Shape).Broadcasts ⟨2, ![4096, c]⟩)
    (r : Fin 4096) (q : Fin c) :
    broadcastTo ⟨2, ![4096, c]⟩ (shapeCast ⟨2, ![1, c]⟩ x h1) h2 (ix2 r q) = x (ix1 q) := by
  refine (broadcastTo_apply _ h2 _ (ix2 (0 : Fin 1) q) (fun a => match a with
    | ⟨0, _⟩ => by show 0 = if (1 : Nat) = 1 then 0 else _; rw [if_pos rfl]
    | ⟨1, _⟩ => by show q.val = if c = 1 then 0 else q.val; rw [if_neg hc])).trans ?_
  exact shapeCast_apply x h1 _ _ (by rw [Shape.rowMajor_val_one, Shape.rowMajor_val_two]; show q.val = 0 * c + q.val; omega)

variable (x0 : Vec Ideal S16x256 .i32) (x1 : Vec Ideal S16x256x256 .i32) (x2 : FVec Ideal S32x128 .bf16)
  (x3 : FVec Ideal S32x384 .bf16) (x4 : FVec Ideal S384 .f32)

/-- Entry `v` of vertex `(p, n)`'s one-hot row: 1 when the vertex's type word is `v`, else 0. -/
def oh (p : Fin 16) (n : Fin 256) (v : Fin 32) : EReal :=
  FloatOps.sitofp (F := Ideal) .f32 ((IntOp.cmpi .eq (x0 (ix2 p n)) (BitVec.ofNat 32 v.val)).setWidth 32)

theorem pay2_apply (p : Fin 16) (n : Fin 256) (v : Fin 32) :
    k0_pay2 (F := Ideal) x0 (ix2 (row p n) v) = oh x0 p n v := by
  unfold k0_pay2
  refine (cast32 _ _ p n v).trans ?_
  show FloatOps.sitofp (F := Ideal) .f32 ((IntOp.cmpi .eq
      (broadcastTo S16x256x32 (shapeCast S16x256x1 x0 Facts₀.shapeCasts_S16x256_S16x256x1) Facts₀.broadcasts_S16x256x1_S16x256x32 (ix3 p n v))
      (iota .tc S16x256x32 32 [2] Facts₀.iota_S16x256x32_d2_w32 (ix3 p n v))).setWidth 32) = _
  have e1 : broadcastTo S16x256x32 (shapeCast S16x256x1 x0 Facts₀.shapeCasts_S16x256_S16x256x1) Facts₀.broadcasts_S16x256x1_S16x256x32 (ix3 p n v)
      = x0 (ix2 p n) := by
    refine (broadcastTo_apply _ Facts₀.broadcasts_S16x256x1_S16x256x32 _ (ix3 p n (0 : Fin 1)) (fun a => match a with
      | ⟨0, _⟩ => by show p.val = if (16 : Nat) = 1 then 0 else p.val; rw [if_neg (by decide)]
      | ⟨1, _⟩ => by show n.val = if (256 : Nat) = 1 then 0 else n.val; rw [if_neg (by decide)]
      | ⟨2, _⟩ => by show 0 = if (1 : Nat) = 1 then 0 else v.val; rw [if_pos rfl])).trans ?_
    exact shapeCast_apply x0 _ _ _ (by rw [Shape.rowMajor_val_two, Shape.rowMajor_val_three]; show p.val * 256 + n.val = (p.val * 256 + n.val) * 1 + 0; omega)
  have e2 : iota .tc S16x256x32 32 [2] Facts₀.iota_S16x256x32_d2_w32 (ix3 p n v) = BitVec.ofNat 32 v.val :=
    iota_single_apply _ _ _ _ _ _
  rw [e1, e2]
  rfl

/-- The gated message of vertex `(p, n)`: its type's row of the table. -/
def gated (p : Fin 16) (n : Fin 256) (h : Fin 128) : EReal := ∑ v : Fin 32, oh x0 p n v * x2 (ix2 v h)

/-- The input-side gate pre-activations of vertex `(p, n)`. -/
def gi (p : Fin 16) (n : Fin 256) (g : Fin 384) : EReal := (∑ v : Fin 32, oh x0 p n v * x3 (ix2 v g)) + x4 (ix1 g)

theorem pay3_apply (p : Fin 16) (n : Fin 256) (g : Fin 384) :
    k0_pay3 (F := Ideal) x0 x3 x4 (ix3 p n g) = gi x0 x3 x4 p n g := by
  unfold k0_pay3
  refine (cast23 _ _ p n g).trans ?_
  refine (addf_apply _ _ _).trans ?_
  unfold gi
  refine congrArg₂ (· + ·) ?_ (biasRow (by decide) x4 _ _ _ g)
  rw [shapeCast_self]
  refine (LibMatmulNN.matmul_zero_apply 4096 32 384 none _ _ (row p n) g).trans ?_
  exact Finset.sum_congr rfl fun v _ => by rw [pay2_apply]

/-- The adjacency entry `u → n` of graph `p`, as a number. -/
def adjf (p : Fin 16) (u n : Fin 256) : EReal := FloatOps.sitofp (F := Ideal) .bf16 (x1 (ix3 p u n))

/-- The aggregated predecessor state of vertex `(p, n)`: the sum of the gated messages over its predecessors. -/
def hpre (p : Fin 16) (n : Fin 256) (h : Fin 128) : EReal := ∑ u : Fin 256, adjf x1 p u n * gated x0 x2 p u h

theorem gatedBlk_apply (p : Fin 16) (u : Fin 256) (h : Fin 128) :
    (truncf .bf16 (shapeCast S16x256x128 (matmul dot_S4096x32_S32x128_S4096x128_1_0_0_1_n_n none (k0_pay2 (F := Ideal) x0)
      (shapeCast S32x128 x2 Facts₀.shapeCasts_S32x128_S32x128) (constant S4096x128 .f32 0x00000000#32)) Facts₀.shapeCasts_S4096x128_S16x256x128)
      Facts₀.bitsLt_bf16_f32 : FVec Ideal S16x256x128 .bf16) (ix3 p u h) = gated x0 x2 p u h := by
  refine (truncf_apply (ψ := .bf16) _ Facts₀.bitsLt_bf16_f32 (ix3 p u h)).trans ?_
  refine (cast23 _ _ p u h).trans ?_
  rw [shapeCast_self]
  refine (LibMatmulNN.matmul_zero_apply 4096 32 128 none _ _ (row p u) h).trans ?_
  exact Finset.sum_congr rfl fun v _ => by rw [pay2_apply]

theorem lhsB_0 (i : S16x256x128.Idx) (q : dot_S16x256x256_S16x256x128_S16x256x128_1_1_2_2_0_0.contr.Idx) : (dot_S16x256x256_S16x256x128_S16x256x128_1_1_2_2_0_0.lhsIdx i q 0).val = (i 0).val := by
  unfold DotDims.lhsIdx
  rw [dif_pos (show (0 : Fin S16x256x256.rank) ∈ dot_S16x256x256_S16x256x128_S16x256x128_1_1_2_2_0_0.lhsBatch by decide)]
  rfl
theorem lhsB_1 (i : S16x256x128.Idx) (q : dot_S16x256x256_S16x256x128_S16x256x128_1_1_2_2_0_0.contr.Idx) : (dot_S16x256x256_S16x256x128_S16x256x128_1_1_2_2_0_0.lhsIdx i q 1).val = (q ⟨0, by decide⟩).val :=
  dot_S16x256x256_S16x256x128_S16x256x128_1_1_2_2_0_0.lhsIdx_val_of_single rfl i q
theorem lhsB_2 (i : S16x256x128.Idx) (q : dot_S16x256x256_S16x256x128_S16x256x128_1_1_2_2_0_0.contr.Idx) : (dot_S16x256x256_S16x256x128_S16x256x128_1_1_2_2_0_0.lhsIdx i q 2).val = (i 1).val := by
  unfold DotDims.lhsIdx
  rw [dif_neg (show ¬(2 : Fin S16x256x256.rank) ∈ dot_S16x256x256_S16x256x128_S16x256x128_1_1_2_2_0_0.lhsBatch by decide), dif_pos (show (2 : Fin S16x256x256.rank) ∈ dot_S16x256x256_S16x256x128_S16x256x128_1_1_2_2_0_0.lhsNonContracting by decide)]
  rfl
theorem rhsB_0 (i : S16x256x128.Idx) (q : dot_S16x256x256_S16x256x128_S16x256x128_1_1_2_2_0_0.contr.Idx) : (dot_S16x256x256_S16x256x128_S16x256x128_1_1_2_2_0_0.rhsIdx i q 0).val = (i 0).val := by
  unfold DotDims.rhsIdx
  rw [dif_pos (show (0 : Fin S16x256x128.rank) ∈ dot_S16x256x256_S16x256x128_S16x256x128_1_1_2_2_0_0.rhsBatch by decide)]
  rfl
theorem rhsB_1 (i : S16x256x128.Idx) (q : dot_S16x256x256_S16x256x128_S16x256x128_1_1_2_2_0_0.contr.Idx) : (dot_S16x256x256_S16x256x128_S16x256x128_1_1_2_2_0_0.rhsIdx i q 1).val = (q ⟨0, by decide⟩).val :=
  dot_S16x256x256_S16x256x128_S16x256x128_1_1_2_2_0_0.rhsIdx_val_of_single rfl i q
theorem rhsB_2 (i : S16x256x128.Idx) (q : dot_S16x256x256_S16x256x128_S16x256x128_1_1_2_2_0_0.contr.Idx) : (dot_S16x256x256_S16x256x128_S16x256x128_1_1_2_2_0_0.rhsIdx i q 2).val = (i 2).val := by
  unfold DotDims.rhsIdx
  rw [dif_neg (show ¬(2 : Fin S16x256x128.rank) ∈ dot_S16x256x256_S16x256x128_S16x256x128_1_1_2_2_0_0.rhsBatch by decide), dif_pos (show (2 : Fin S16x256x128.rank) ∈ dot_S16x256x256_S16x256x128_S16x256x128_1_1_2_2_0_0.rhsNonContracting by decide)]
  rfl

/-- The batched product contracting the SOURCE vertex of both operands: entry `(p, n, h)` is the sum over `u`
    of `A[p, u, n] · G[p, u, h]`. -/
theorem batchedTN_apply (A : FVec Ideal S16x256x256 .bf16) (G : FVec Ideal S16x256x128 .bf16) (p : Fin 16) (n : Fin 256) (h : Fin 128) :
    matmul dot_S16x256x256_S16x256x128_S16x256x128_1_1_2_2_0_0 none A G (constant S16x256x128 .f32 0x00000000#32) (ix3 p n h)
      = ∑ u : Fin 256, A (ix3 p u n) * G (ix3 p u h) := by
  simp only [matmul]
  rw [Ideal.matmul_constant_zero_apply, ← Equiv.sum_comp (contrEquiv1 dot_S16x256x256_S16x256x128_S16x256x128_1_1_2_2_0_0 256 rfl rfl).symm]
  refine Finset.sum_congr rfl fun k _ => ?_
  have hk := contrEquiv1_symm_val dot_S16x256x256_S16x256x128_S16x256x128_1_1_2_2_0_0 256 rfl rfl k
  have el : dot_S16x256x256_S16x256x128_S16x256x128_1_1_2_2_0_0.lhsIdx (ix3 p n h) ((contrEquiv1 dot_S16x256x256_S16x256x128_S16x256x128_1_1_2_2_0_0 256 rfl rfl).symm k) = ix3 p k n := funext fun a => Fin.ext (by
    match a with
    | ⟨0, _⟩ => exact lhsB_0 _ _
    | ⟨1, _⟩ => exact (lhsB_1 _ _).trans hk
    | ⟨2, _⟩ => exact lhsB_2 _ _)
  have er : dot_S16x256x256_S16x256x128_S16x256x128_1_1_2_2_0_0.rhsIdx (ix3 p n h) ((contrEquiv1 dot_S16x256x256_S16x256x128_S16x256x128_1_1_2_2_0_0 256 rfl rfl).symm k) = ix3 p k h := funext fun a => Fin.ext (by
    match a with
    | ⟨0, _⟩ => exact rhsB_0 _ _
    | ⟨1, _⟩ => exact (rhsB_1 _ _).trans hk
    | ⟨2, _⟩ => exact rhsB_2 _ _)
  rw [el, er]

theorem pay4_apply (p : Fin 16) (n : Fin 256) (h : Fin 128) :
    k0_pay4 (F := Ideal) x0 x2 x1 (ix3 p n h) = hpre x0 x1 x2 p n h := by
  unfold k0_pay4
  refine (batchedTN_apply _ _ p n h).trans ?_
  unfold hpre
  exact Finset.sum_congr rfl fun u _ => congrArg₂ (· * ·) rfl (gatedBlk_apply x0 x2 p u h)

end Cert.KernelIdeal.Stages

end
-- ==== Proof.KStageB.lean ====
/-
  The rest of the kernel body at the extended reals: the recurrent-side gate pre-activations, the three gates
  (reset, update, candidate), the new vertex state, the sum of the new states over the interior vertices
  1 … 254 of each graph (taken as a full sum against a 0/1 mask), and the final projection with its bias.
-/
import proofs.«116194_j70265664963195_2_alg».proof.Proof.KStageA

noncomputable section

open scoped BigOperators

namespace Cert.KernelIdeal.Stages

open Idealize.ShloMosaic Idealize.ShloMosaic.ValueIdx Cert.KernelIdeal Cert.KernelIdeal.Gen

/-- A bias vector `[c]` laid along the rows of an `[R, c]` block. -/
theorem biasRowR {α : Type} {R c : Nat} (hc : c ≠ 1) (x : (⟨1, ![c]⟩ : Shape).Idx → α)
    (h1 : (⟨1, ![c]⟩ : Shape).ShapeCasts ⟨2, ![1, c]⟩) (h2 : (⟨2, ![1, c]⟩ : Shape).Broadcasts ⟨2, ![R, c]⟩)
    (r : Fin R) (q : Fin c) :
    broadcastTo ⟨2, ![R, c]⟩ (shapeCast ⟨2, ![1, c]⟩ x h1) h2 (ix2 r q) = x (ix1 q) := by
  refine (broadcastTo_apply _ h2 _ (ix2 (0 : Fin 1) q) (fun a => match a with
    | ⟨0, _⟩ => by show 0 = if (1 : Nat) = 1 then 0 else _; rw [if_pos rfl]
    | ⟨1, _⟩ => by show q.val = if c = 1 then 0 else q.val; rw [if_neg hc])).trans ?_
  exact shapeCast_apply x h1 _ _ (by rw [Shape.rowMajor_val_one, Shape.rowMajor_val_two]; show q.val = 0 * c + q.val; omega)

/-- Gate `off / 128` of the 384 stacked gate rows. -/
abbrev sl (off : Nat) (h : Fin 128) (hoff : off + 128 ≤ 384 := by omega) : Fin 384 := ⟨off + h.val, by omega⟩

/-- One gate's 128 columns cut out of the 384 stacked ones. -/
theorem slice_apply {α : Type} (off : Nat) (hoff : off + 128 ≤ 384) (x : S16x256x384.Idx → α)
    (hs : S16x256x384.Slices ![0, 0, off] S16x256x128) (p : Fin 16) (n : Fin 256) (q : Fin 128) :
    extractStridedSlice S16x256x128 ![0, 0, off] x hs (ix3 p n q) = x (ix3 p n (sl off q hoff)) :=
  extractStridedSlice_apply _ x hs _ _ (fun a => match a with
    | ⟨0, _⟩ => by show p.val = 0 + p.val; omega
    | ⟨1, _⟩ => by show n.val = 0 + n.val; omega
    | ⟨2, _⟩ => rfl)

variable (x0 : Vec Ideal S16x256 .i32) (x1 : Vec Ideal S16x256x256 .i32) (x2 : FVec Ideal S32x128 .bf16)
  (x3 : FVec Ideal S32x384 .bf16) (x4 : FVec Ideal S384 .f32) (x5 : FVec Ideal S384x128 .f32) (x6 : FVec Ideal S384 .f32)

/-- The recurrent-side gate pre-activations of vertex `(p, n)`. -/
def gh (p : Fin 16) (n : Fin 256) (g : Fin 384) : EReal := (∑ h : Fin 128, hpre x0 x1 x2 p n h * x5 (ix2 g h)) + x6 (ix1 g)

theorem pay5_apply (p : Fin 16) (n : Fin 256) (g : Fin 384) :
    k0_pay5 (F := Ideal) x0 x2 x1 x5 x6 (ix3 p n g) = gh x0 x1 x2 x5 x6 p n g := by
  unfold k0_pay5
  refine (cast23 _ _ p n g).trans ?_
  refine (addf_apply _ _ _).trans ?_
  unfold gh
  refine congrArg₂ (· + ·) ?_ (biasRow (by decide) x6 _ _ _ g)
  refine (LibMatmulNN.matmul_zero_apply 4096 128 384 none _ _ (row p n) g).trans ?_
  refine Finset.sum_congr rfl fun h _ => congrArg₂ (· * ·) ?_ ?_
  · refine (truncf_apply (ψ := .bf16) _ Facts₀.bitsLt_bf16_f32 _).trans ?_
    refine (cast32 _ _ p n h).trans ?_
    exact pay4_apply x0 x1 x2 p n h
  · exact transpose_apply _ _ _ _ (ix2 g h) (fun b => match b with | ⟨0, _⟩ => rfl | ⟨1, _⟩ => rfl)

/-- The reset gate. -/
def rg (p : Fin 16) (n : Fin 256) (h : Fin 128) : EReal :=
  Ideal.logistic (gi x0 x3 x4 p n (sl 0 h) + gh x0 x1 x2 x5 x6 p n (sl 0 h))

theorem pay6_apply (p : Fin 16) (n : Fin 256) (h : Fin 128) :
    k0_pay6 (F := Ideal) x0 x2 x3 x4 x1 x5 x6 (ix3 p n h) = rg x0 x1 x2 x3 x4 x5 x6 p n h := by
  unfold k0_pay6 rg
  refine congrArg Ideal.logistic (congrArg₂ (· + ·) ?_ ?_)
  · exact (slice_apply 0 (by omega) _ _ p n h).trans (pay3_apply x0 x3 x4 p n _)
  · exact (slice_apply 0 (by omega) _ _ p n h).trans (pay5_apply x0 x1 x2 x5 x6 p n _)

theorem pay7_apply (p : Fin 16) (n : Fin 256) (h : Fin 128) :
    k0_pay7 (F := Ideal) x0 x3 x4 (ix3 p n h) = gi x0 x3 x4 p n (sl 128 h) := by
  unfold k0_pay7
  exact (slice_apply 128 (by omega) _ _ p n h).trans (pay3_apply x0 x3 x4 p n _)

theorem pay8_apply (p : Fin 16) (n : Fin 256) (h : Fin 128) :
    k0_pay8 (F := Ideal) x0 x2 x1 x5 x6 (ix3 p n h) = gh x0 x1 x2 x5 x6 p n (sl 128 h) := by
  unfold k0_pay8
  exact (slice_apply 128 (by omega) _ _ p n h).trans (pay5_apply x0 x1 x2 x5 x6 p n _)

/-- The new state of a vertex from its update-gate pre-activation `zin`, the two candidate-gate pre-activations
    `a`, `b`, the reset gate `r` and the aggregated predecessor state `hp`:
    `(1 − σ zin) · tanh (a + r · b) + σ zin · hp`. -/
def hvS (zin a b r hp : EReal) : EReal :=
  (Ideal.ofBits .f32 0x3F800000#32 - Ideal.logistic zin) * Ideal.tanh (a + r * b) + Ideal.logistic zin * hp

/-- 1 on the interior vertices 1 … 254 of a graph, 0 on its two end vertices. -/
def mask (n : Fin 256) : EReal :=
  FloatOps.sitofp (F := Ideal) .f32 ((IntOp.andi (IntOp.cmpi .sge (BitVec.ofNat 32 n.val) 1#32)
    (IntOp.cmpi .sle (BitVec.ofNat 32 n.val) 254#32)).setWidth 32)

theorem maskBlk_apply (p : Fin 16) (n : Fin 256) (h : Fin 128) :
    broadcastTo S16x256x128 (sitofp .f32 (extui 32 (andi (cmpi .sge (iota .tc S16x256x1 32 [1] Facts₀.iota_S16x256x1_d1_w32) (broadcast S16x256x1 1#32))
      (cmpi .sle (iota .tc S16x256x1 32 [1] Facts₀.iota_S16x256x1_d1_w32) (broadcast S16x256x1 254#32))) Facts₀.natLt_1_32) : FVec Ideal S16x256x1 .f32)
      Facts₀.broadcasts_S16x256x1_S16x256x128 (ix3 p n h) = mask n := by
  refine (broadcastTo_apply _ Facts₀.broadcasts_S16x256x1_S16x256x128 _ (ix3 p n (0 : Fin 1)) (fun a => match a with
    | ⟨0, _⟩ => by show p.val = if (16 : Nat) = 1 then 0 else p.val; rw [if_neg (by decide)]
    | ⟨1, _⟩ => by show n.val = if (256 : Nat) = 1 then 0 else n.val; rw [if_neg (by decide)]
    | ⟨2, _⟩ => by show 0 = if (1 : Nat) = 1 then 0 else h.val; rw [if_pos rfl])).trans ?_
  have e2 : iota .tc S16x256x1 32 [1] Facts₀.iota_S16x256x1_d1_w32 (ix3 p n (0 : Fin 1)) = BitVec.ofNat 32 n.val :=
    iota_single_apply _ _ _ _ _ _
  show FloatOps.sitofp (F := Ideal) .f32 ((IntOp.andi (IntOp.cmpi .sge (iota .tc S16x256x1 32 [1] Facts₀.iota_S16x256x1_d1_w32 (ix3 p n (0 : Fin 1))) 1#32)
    (IntOp.cmpi .sle (iota .tc S16x256x1 32 [1] Facts₀.iota_S16x256x1_d1_w32 (ix3 p n (0 : Fin 1))) 254#32)).setWidth 32) = _
  rw [e2]
  rfl

/-- The stored block at `(p, j)`: the interior-vertex sum of the new states, projected by row `j` of the stacked
    output weights, plus the stacked bias. -/
theorem pay1_apply (v20 v35 : FVec Ideal S16x256x384 .f32) (v24 v39 v40 v41 : FVec Ideal S16x256x128 .f32)
    (x7 : FVec Ideal S128x128 .f32) (x8 : FVec Ideal S128 .f32) (p : Fin 16) (j : Fin 128) :
    k0_pay1 (F := Ideal) v20 v24 v35 v39 v40 v41 x7 x8 (ix2 p j)
      = (∑ h : Fin 128, (∑ n : Fin 256, hvS (v40 (ix3 p n h) + v41 (ix3 p n h)) (v20 (ix3 p n (sl 256 h))) (v35 (ix3 p n (sl 256 h)))
            (v39 (ix3 p n h)) (v24 (ix3 p n h)) * mask n) * x7 (ix2 j h)) + x8 (ix1 j) := by
  unfold k0_pay1
  refine (addf_apply _ _ _).trans ?_
  refine congrArg₂ (· + ·) ?_ ?_
  · refine (LibMatmulNN.matmul_zero_apply 16 128 128 none _ _ p j).trans ?_
    refine Finset.sum_congr rfl fun h _ => congrArg₂ (· * ·) ?_ ?_
    · refine (truncf_apply (ψ := .bf16) _ Facts₀.bitsLt_bf16_f32 _).trans ?_
      refine (Ideal.multiReduction_add_single _ 0x00000000#32 Facts₀.reduces_S16x256x128_S16x128 (Or.inl rfl) rfl (ix2 p h)).trans ?_
      refine Finset.sum_congr rfl fun n _ => ?_
      have e : Facts₀.reduces_S16x256x128_S16x128.lift (ix2 p h) n = ix3 p n h :=
        funext fun a => Fin.ext (match a with | ⟨0, _⟩ => rfl | ⟨1, _⟩ => rfl | ⟨2, _⟩ => rfl)
      rw [e]
      refine (mulf_apply _ _ _).trans (congrArg₂ (· * ·) ?_ (maskBlk_apply p n h))
      have ea := slice_apply 256 (by omega) v20 Facts₀.slices_S16x256x384_o0_0_256_S16x256x128 p n h
      have eb := slice_apply 256 (by omega) v35 Facts₀.slices_S16x256x384_o0_0_256_S16x256x128 p n h
      rw [← ea, ← eb]
      rfl
    · refine (transpose_apply _ _ _ _ (ix2 j h) (fun b => match b with | ⟨0, _⟩ => rfl | ⟨1, _⟩ => rfl)).trans ?_
      refine (truncf_apply (ψ := .bf16) _ Facts₀.bitsLt_bf16_f32 _).trans ?_
      rw [shapeCast_self]
  · rw [shapeCast_self]
    exact biasRowR (by decide) x8 _ _ p j

end Cert.KernelIdeal.Stages

end
-- ==== Proof.BridgeA.lean ====
/-
  The kernel's values over the blocks of one grid point are the reference's values at the global indices.

  Grid point `t` holds graphs `16·t … 16·t + 15`.  With the block of each argument array read where the
  array says, every stage of the kernel body at block coordinates `(p, n, ·)` equals the reference's stage at
  `(16·t + p, n, ·)`.  The one place where the two computations are arranged differently is the gated message:
  the kernel looks the vertex's type up in a per-type table `σ(Wg[h, v] + bg[h]) · Wm[h, v]`, the reference
  applies `σ(· + bg[h])` and the product after contracting the one-hot row against `Wg` and `Wm`.  A one-hot row
  has at most one non-zero entry, and that entry is 1, so both pick the same table entry (and both give 0 for a
  type word outside the table).
-/
import proofs.«116194_j70265664963195_2_alg».proof.Proof.KStageB
import proofs.«116194_j70265664963195_2_alg».proof.Proof.Gen.ReferenceIdeal.Read

noncomputable section

open scoped BigOperators

namespace Cert.Bridge

open Idealize.ShloMosaic Idealize.ShloMosaic.ValueIdx Cert.KernelIdeal.Stages Cert.ReferenceIdeal.Read
open Cert.ReferenceIdeal (S512x256 S512x256x256 S384x32 S384x128 S384 S128x32 S128 S64x128 S64 S512x256x32 S512x256x128 S512x256x384 S512x254x128 S512x128 S512x64 S128x64 S_)
open Cert.KernelIdeal (S16x256 S16x256x256 S32x128 S32x384 S128x128 S16x256x128 S16x256x384 S16x128)

local macro "ix_ext" : tactic => `(tactic| (funext a; apply Fin.ext; first
  | (match a with | ⟨0, _⟩ => rfl | ⟨1, _⟩ => rfl | ⟨2, _⟩ => rfl)
  | (match a with | ⟨0, _⟩ => rfl | ⟨1, _⟩ => rfl)
  | (match a with | ⟨0, _⟩ => rfl)))

/-- Graph `p` of grid point `t`'s block is graph `16·t + p` of the batch. -/
abbrev gb (t : Fin 32) (p : Fin 16) : Fin 512 := ⟨t.val * 16 + p.val, by omega⟩

/-! ## Bits as numbers -/

theorem bit_one : FloatOps.sitofp (F := Ideal) .f32 ((1#1 : BitVec 1).setWidth 32) = 1 := by
  show ((((1#1 : BitVec 1).setWidth 32).toInt : ℝ) : EReal) = 1
  rw [show ((1#1 : BitVec 1).setWidth 32).toInt = 1 by decide]; simp
theorem bit_zero : FloatOps.sitofp (F := Ideal) .f32 ((0#1 : BitVec 1).setWidth 32) = 0 := by
  show ((((0#1 : BitVec 1).setWidth 32).toInt : ℝ) : EReal) = 0
  rw [show ((0#1 : BitVec 1).setWidth 32).toInt = 0 by decide]; simp
theorem ubit_one : FloatOps.uitofp (F := Ideal) .f32 (1#1 : BitVec 1) = 1 := by
  show (((1#1 : BitVec 1).toNat : ℝ) : EReal) = 1
  rw [show (1#1 : BitVec 1).toNat = 1 by decide]; simp
theorem ubit_zero : FloatOps.uitofp (F := Ideal) .f32 (0#1 : BitVec 1) = 0 := by
  show (((0#1 : BitVec 1).toNat : ℝ) : EReal) = 0
  rw [show (0#1 : BitVec 1).toNat = 0 by decide]; simp

/-- A compare bit widened and read signed is the bit read unsigned. -/
theorem sbit_eq_ubit (b : BitVec 1) : FloatOps.sitofp (F := Ideal) .f32 (b.setWidth 32) = FloatOps.uitofp (F := Ideal) .f32 b := by
  rcases BitVec.eq_zero_or_eq_one b with rfl | rfl
  · rw [bit_zero, ubit_zero]
  · rw [bit_one, ubit_one]

theorem cmpi_eq_self (c : BitVec 32) : IntOp.cmpi .eq c c = 1#1 := by
  show BitVec.ofBool (c == c) = 1#1
  rw [beq_self_eq_true]; rfl
theorem cmpi_eq_ne {c d : BitVec 32} (h : c ≠ d) : IntOp.cmpi .eq c d = 0#1 := by
  show BitVec.ofBool (c == d) = 0#1
  rw [beq_eq_false_iff_ne.mpr h]; rfl

theorem ofNat_inj32 (v w : Fin 32) (h : BitVec.ofNat 32 v.val = BitVec.ofNat 32 w.val) : v = w := by
  have := congrArg BitVec.toNat h
  simp only [BitVec.toNat_ofNat] at this
  apply Fin.ext; omega

/-- A one-hot row is zero, or has one entry 1 and the others 0. -/
theorem oh_cases (x0 : Vec Ideal S16x256 .i32) (p : Fin 16) (n : Fin 256) :
    (∀ v, oh x0 p n v = 0) ∨ ∃ v0, oh x0 p n v0 = 1 ∧ ∀ v, v ≠ v0 → oh x0 p n v = 0 := by
  by_cases h : ∃ v0 : Fin 32, x0 (ix2 p n) = BitVec.ofNat 32 v0.val
  · obtain ⟨v0, hv0⟩ := h
    refine Or.inr ⟨v0, ?_, fun v hv => ?_⟩
    · unfold oh; rw [hv0, cmpi_eq_self, bit_one]
    · unfold oh; rw [hv0, cmpi_eq_ne (fun e => hv (ofNat_inj32 _ _ e).symm), bit_zero]
  · refine Or.inl fun v => ?_
    unfold oh; rw [cmpi_eq_ne (fun e => h ⟨v, e⟩), bit_zero]

/-- Contracting a one-hot row against a table and then applying `F (· + c)` and a product is the same as contracting
    it against the table of the entries `F (f v + c) · g v`. -/
theorem onehot_fold (o : Fin 32 → EReal) (hO : (∀ v, o v = 0) ∨ ∃ v0, o v0 = 1 ∧ ∀ v, v ≠ v0 → o v = 0)
    (f g : Fin 32 → EReal) (F : EReal → EReal) (c : EReal) :
    ∑ v, o v * (F (f v + c) * g v) = F ((∑ v, o v * f v) + c) * ∑ v, o v * g v := by
  rcases hO with h0 | ⟨v0, h1, h0⟩
  · simp only [h0, zero_mul, Finset.sum_const_zero, mul_zero]
  · have s : ∀ k : Fin 32 → EReal, ∑ v, o v * k v = k v0 := fun k => by
      rw [Finset.sum_eq_single v0 (fun v _ hv => by rw [h0 v hv, zero_mul]) (fun hn => absurd (Finset.mem_univ _) hn), h1, one_mul]
    rw [s, s f, s g]

variable (x0 : Vec Ideal S16x256 .i32) (x1 : Vec Ideal S16x256x256 .i32) (x2 : FVec Ideal S32x128 .bf16)
  (x3 : FVec Ideal S32x384 .bf16) (x4 : FVec Ideal S384 .f32) (x5 : FVec Ideal S384x128 .f32) (x6 : FVec Ideal S384 .f32)
variable (a0 : (⟨S512x256, .i32⟩ : BufTy).Contents (Elt Ideal)) (a1 : (⟨S512x256x256, .i32⟩ : BufTy).Contents (Elt Ideal))
  (a2 : (⟨S384x32, .f32⟩ : BufTy).Contents (Elt Ideal)) (a3 : (⟨S384x128, .f32⟩ : BufTy).Contents (Elt Ideal))
  (a4 a5 : (⟨S384, .f32⟩ : BufTy).Contents (Elt Ideal)) (a6 : (⟨S128x32, .f32⟩ : BufTy).Contents (Elt Ideal))
  (a7 : (⟨S128, .f32⟩ : BufTy).Contents (Elt Ideal)) (a8 : (⟨S128x32, .f32⟩ : BufTy).Contents (Elt Ideal))
variable (t : Fin 32)

/-- The float word of 1.0. -/
abbrev one : EReal := Ideal.ofBits .f32 0x3F800000#32

/-- The logistic function as the host spells it: `1 / (1 + e^(−x))`. -/
def sg (x : EReal) : EReal := Ideal.div one (one + Ideal.exp (-x))

/-- Entry `(v, h)` of the per-type table of gated messages. -/
def tg (v : Fin 32) (h : Fin 128) : EReal := sg (a6 (ix2 h v) + a7 (ix1 h)) * a8 (ix2 h v)

theorem oh_ref (H0 : ∀ p n, x0 (ix2 p n) = a0 (ix2 (gb t p) n)) (p : Fin 16) (n : Fin 256) (v : Fin 32) :
    oh x0 p n v = val_main_v0 (F := Ideal) a0 (ix3 (gb t p) n v) := by
  rw [val_main_v0_apply, val_main_call0_v4_apply, val_main_call0_v2_apply, val_main_call0_v0_apply, val_main_call0_v3_apply, val_main_call0_v1_apply]
  have e : idx_main_call0_v0 (idx_main_call0_v2 (ix3 (gb t p) n v)) = ix2 (gb t p) n := by ix_ext
  rw [e]
  unfold oh
  rw [H0, sbit_eq_ubit]

theorem gated_ref (H0 : ∀ p n, x0 (ix2 p n) = a0 (ix2 (gb t p) n)) (H2 : ∀ v h, x2 (ix2 v h) = tg a6 a7 a8 v h)
    (p : Fin 16) (n : Fin 256) (h : Fin 128) :
    gated x0 x2 p n h = val_main_v12 (F := Ideal) a0 a6 a7 a8 (ix3 (gb t p) n h) := by
  rw [val_main_v12_apply, val_main_v10_apply, val_main_v9_apply, val_main_cst_0_apply, val_main_v8_apply, val_main_v7_apply, val_main_cst_apply,
    val_main_v6_apply, val_main_v5_apply, val_main_v4_apply, val_main_v1_apply, val_main_v3_apply, val_main_v2_apply, val_main_v11_apply]
  have e3 : idx_main_v2 (idx_main_v3 (ix3 (gb t p) n h)) = ix1 h := by ix_ext
  have el : ∀ k : Fin 32, lidx_main_v1 (ix3 (gb t p) n h) k = ix3 (gb t p) n k := fun k => by ix_ext
  have er : ∀ k : Fin 32, ridx_main_v1 (ix3 (gb t p) n h) k = ix2 h k := fun k => by ix_ext
  have el' : ∀ k : Fin 32, lidx_main_v11 (ix3 (gb t p) n h) k = ix3 (gb t p) n k := fun k => by ix_ext
  have er' : ∀ k : Fin 32, ridx_main_v11 (ix3 (gb t p) n h) k = ix2 h k := fun k => by ix_ext
  simp only [e3, el, er, el', er', ← oh_ref x0 a0 t H0]
  unfold gated
  simp only [H2]
  exact onehot_fold (oh x0 p n) (oh_cases x0 p n) (fun v => a6 (ix2 h v)) (fun v => a8 (ix2 h v)) sg (a7 (ix1 h))

theorem hpre_ref (H0 : ∀ p n, x0 (ix2 p n) = a0 (ix2 (gb t p) n)) (H1 : ∀ p u n, x1 (ix3 p u n) = a1 (ix3 (gb t p) u n))
    (H2 : ∀ v h, x2 (ix2 v h) = tg a6 a7 a8 v h) (p : Fin 16) (n : Fin 256) (h : Fin 128) :
    hpre x0 x1 x2 p n h = val_main_v14 (F := Ideal) a0 a1 a6 a7 a8 (ix3 (gb t p) n h) := by
  rw [val_main_v14_apply]
  unfold hpre
  refine Finset.sum_congr rfl fun u _ => ?_
  have el : lidx_main_v14 (ix3 (gb t p) n h) u = ix3 (gb t p) u n := by ix_ext
  have er : ridx_main_v14 (ix3 (gb t p) n h) u = ix3 (gb t p) u h := by ix_ext
  rw [el, er, val_main_v13_apply, ← gated_ref x0 x2 a0 a6 a7 a8 t H0 H2]
  unfold adjf
  rw [H1]
  rfl

theorem gi_ref (H0 : ∀ p n, x0 (ix2 p n) = a0 (ix2 (gb t p) n)) (H3 : ∀ v g, x3 (ix2 v g) = a2 (ix2 g v))
    (H4 : ∀ g, x4 (ix1 g) = a4 (ix1 g)) (p : Fin 16) (n : Fin 256) (g : Fin 384) :
    gi x0 x3 x4 p n g = val_main_v18 (F := Ideal) a0 a2 a4 (ix3 (gb t p) n g) := by
  rw [val_main_v18_apply, val_main_v15_apply, val_main_v17_apply, val_main_v16_apply]
  have e3 : idx_main_v16 (idx_main_v17 (ix3 (gb t p) n g)) = ix1 g := by ix_ext
  have el : ∀ k : Fin 32, lidx_main_v15 (ix3 (gb t p) n g) k = ix3 (gb t p) n k := fun k => by ix_ext
  have er : ∀ k : Fin 32, ridx_main_v15 (ix3 (gb t p) n g) k = ix2 g k := fun k => by ix_ext
  simp only [e3, el, er, ← oh_ref x0 a0 t H0]
  unfold gi
  simp only [H3, H4]
  rfl

theorem gh_ref (H0 : ∀ p n, x0 (ix2 p n) = a0 (ix2 (gb t p) n)) (H1 : ∀ p u n, x1 (ix3 p u n) = a1 (ix3 (gb t p) u n))
    (H2 : ∀ v h, x2 (ix2 v h) = tg a6 a7 a8 v h) (H5 : ∀ g h, x5 (ix2 g h) = a3 (ix2 g h)) (H6 : ∀ g, x6 (ix1 g) = a5 (ix1 g))
    (p : Fin 16) (n : Fin 256) (g : Fin 384) :
    gh x0 x1 x2 x5 x6 p n g = val_main_v22 (F := Ideal) a0 a1 a3 a5 a6 a7 a8 (ix3 (gb t p) n g) := by
  rw [val_main_v22_apply, val_main_v19_apply, val_main_v21_apply, val_main_v20_apply]
  have e3 : idx_main_v20 (idx_main_v21 (ix3 (gb t p) n g)) = ix1 g := by ix_ext
  have el : ∀ k : Fin 128, lidx_main_v19 (ix3 (gb t p) n g) k = ix3 (gb t p) n k := fun k => by ix_ext
  have er : ∀ k : Fin 128, ridx_main_v19 (ix3 (gb t p) n g) k = ix2 g k := fun k => by ix_ext
  simp only [e3, el, er, ← hpre_ref x0 x1 x2 a0 a1 a6 a7 a8 t H0 H1 H2]
  unfold gh
  simp only [H5, H6]
  rfl

end Cert.Bridge

end
-- ==== Proof.BridgeB.lean ====
/-
  The gates, the new vertex states, their sum over the interior vertices, and the two output projections, each
  against the reference's stage at the global index.  Two rearrangements meet here: the kernel sums all 256
  vertices against a mask that is 1 on vertices 1 … 254 and 0 on the two end vertices, the reference sums the
  254 interior vertices directly; and the kernel projects once through the two output weight matrices stacked,
  the reference once through each.
-/
import proofs.«116194_j70265664963195_2_alg».proof.Proof.BridgeA

noncomputable section

open scoped BigOperators

namespace Cert.Bridge

open Idealize.ShloMosaic Idealize.ShloMosaic.ValueIdx Cert.KernelIdeal.Stages Cert.ReferenceIdeal.Read
open Cert.ReferenceIdeal (S512x256 S512x256x256 S384x32 S384x128 S384 S128x32 S128 S64x128 S64 S512x256x32 S512x256x128 S512x256x384 S512x254x128 S512x128 S512x64 S128x64 S_)
open Cert.KernelIdeal (S16x256 S16x256x256 S32x128 S32x384 S128x128 S16x256x128 S16x256x384 S16x128)

local macro "ix_ext" : tactic => `(tactic| (funext a; apply Fin.ext; first
  | (match a with | ⟨0, _⟩ => rfl | ⟨1, _⟩ => rfl | ⟨2, _⟩ => rfl)
  | (match a with | ⟨0, _⟩ => rfl | ⟨1, _⟩ => rfl)
  | (match a with | ⟨0, _⟩ => rfl)))

theorem one_eq : one = 1 := IdealRules.sign_bit.ideal_onePat .f32

/-- The host's spelling of the logistic function is the logistic function. -/
theorem sg_eq (x : EReal) : sg x = Ideal.logistic x := by
  unfold sg Ideal.logistic; rw [one_eq]

/-! ## The vertex mask -/

theorem mask_bits : ∀ k : Fin 254, IntOp.andi (IntOp.cmpi .sge (BitVec.ofNat 32 (1 + k.val)) 1#32) (IntOp.cmpi .sle (BitVec.ofNat 32 (1 + k.val)) 254#32) = 1#1 := by
  decide +kernel

theorem mask_interior (k : Fin 254) : mask ⟨1 + k.val, by omega⟩ = 1 := by
  unfold mask; rw [mask_bits k, bit_one]
theorem mask_first : mask 0 = 0 := by
  unfold mask
  rw [show IntOp.andi (IntOp.cmpi .sge (BitVec.ofNat 32 (0 : Fin 256).val) 1#32) (IntOp.cmpi .sle (BitVec.ofNat 32 (0 : Fin 256).val) 254#32) = 0#1 by decide +kernel, bit_zero]
theorem mask_last : mask 255 = 0 := by
  unfold mask
  rw [show IntOp.andi (IntOp.cmpi .sge (BitVec.ofNat 32 (255 : Fin 256).val) 1#32) (IntOp.cmpi .sle (BitVec.ofNat 32 (255 : Fin 256).val) 254#32) = 0#1 by decide +kernel, bit_zero]

/-- The sum over all 256 vertices against the mask is the sum over the interior vertices. -/
theorem masked_sum (f : Fin 256 → EReal) : ∑ n, f n * mask n = ∑ k : Fin 254, f ⟨1 + k.val, by omega⟩ := by
  rw [Fin.sum_univ_succ, Fin.sum_univ_castSucc, mask_first, mul_zero, zero_add,
    show mask (Fin.last 254).succ = 0 from mask_last, mul_zero, add_zero]
  refine Finset.sum_congr rfl fun k _ => ?_
  have e : (k.castSucc.succ : Fin 256) = ⟨1 + k.val, by omega⟩ := Fin.ext (by simp only [Fin.val_succ, Fin.coe_castSucc]; omega)
  rw [e, mask_interior, mul_one]

variable (x0 : Vec Ideal S16x256 .i32) (x1 : Vec Ideal S16x256x256 .i32) (x2 : FVec Ideal S32x128 .bf16)
  (x3 : FVec Ideal S32x384 .bf16) (x4 : FVec Ideal S384 .f32) (x5 : FVec Ideal S384x128 .f32) (x6 : FVec Ideal S384 .f32)
  (x7 : FVec Ideal S128x128 .f32) (x8 : FVec Ideal S128 .f32)
variable (a0 : (⟨S512x256, .i32⟩ : BufTy).Contents (Elt Ideal)) (a1 : (⟨S512x256x256, .i32⟩ : BufTy).Contents (Elt Ideal))
  (a2 : (⟨S384x32, .f32⟩ : BufTy).Contents (Elt Ideal)) (a3 : (⟨S384x128, .f32⟩ : BufTy).Contents (Elt Ideal))
  (a4 a5 : (⟨S384, .f32⟩ : BufTy).Contents (Elt Ideal)) (a6 : (⟨S128x32, .f32⟩ : BufTy).Contents (Elt Ideal))
  (a7 : (⟨S128, .f32⟩ : BufTy).Contents (Elt Ideal)) (a8 : (⟨S128x32, .f32⟩ : BufTy).Contents (Elt Ideal))
  (a9 a11 : (⟨S64x128, .f32⟩ : BufTy).Contents (Elt Ideal)) (a10 a12 : (⟨S64, .f32⟩ : BufTy).Contents (Elt Ideal))
variable (t : Fin 32)

theorem rg_ref (H0 : ∀ p n, x0 (ix2 p n) = a0 (ix2 (gb t p) n)) (H1 : ∀ p u n, x1 (ix3 p u n) = a1 (ix3 (gb t p) u n)) (H2 : ∀ v h, x2 (ix2 v h) = tg a6 a7 a8 v h) (H3 : ∀ v g, x3 (ix2 v g) = a2 (ix2 g v)) (H4 : ∀ g, x4 (ix1 g) = a4 (ix1 g)) (H5 : ∀ g h, x5 (ix2 g h) = a3 (ix2 g h)) (H6 : ∀ g, x6 (ix1 g) = a5 (ix1 g)) (p : Fin 16) (n : Fin 256) (h : Fin 128) :
    rg x0 x1 x2 x3 x4 x5 x6 p n h = val_main_v31 (F := Ideal) a0 a1 a2 a3 a4 a5 a6 a7 a8 (ix3 (gb t p) n h) := by
  rw [val_main_v31_apply, val_main_v30_apply, val_main_cst_2_apply, val_main_v29_apply, val_main_v28_apply, val_main_cst_1_apply,
    val_main_v27_apply, val_main_v26_apply, val_main_v25_apply, val_main_v23_apply, val_main_v24_apply]
  have e1 : idx_main_v23 (ix3 (gb t p) n h) = ix3 (gb t p) n (sl 0 h) := by
    funext a; apply Fin.ext
    match a with | ⟨0, _⟩ => rfl | ⟨1, _⟩ => rfl | ⟨2, _⟩ => show h.val = 0 + h.val; omega
  have e2 : idx_main_v24 (ix3 (gb t p) n h) = ix3 (gb t p) n (sl 0 h) := by
    funext a; apply Fin.ext
    match a with | ⟨0, _⟩ => rfl | ⟨1, _⟩ => rfl | ⟨2, _⟩ => show h.val = 0 + h.val; omega
  rw [e1, e2, ← gi_ref x0 x3 x4 a0 a2 a4 t H0 H3 H4, ← gh_ref x0 x1 x2 x5 x6 a0 a1 a3 a5 a6 a7 a8 t H0 H1 H2 H5 H6]
  unfold rg
  rw [← sg_eq]
  rfl

theorem hv_ref (H0 : ∀ p n, x0 (ix2 p n) = a0 (ix2 (gb t p) n)) (H1 : ∀ p u n, x1 (ix3 p u n) = a1 (ix3 (gb t p) u n)) (H2 : ∀ v h, x2 (ix2 v h) = tg a6 a7 a8 v h) (H3 : ∀ v g, x3 (ix2 v g) = a2 (ix2 g v)) (H4 : ∀ g, x4 (ix1 g) = a4 (ix1 g)) (H5 : ∀ g h, x5 (ix2 g h) = a3 (ix2 g h)) (H6 : ∀ g, x6 (ix1 g) = a5 (ix1 g)) (p : Fin 16) (n : Fin 256) (h : Fin 128) :
    hvS (gi x0 x3 x4 p n (sl 128 h) + gh x0 x1 x2 x5 x6 p n (sl 128 h)) (gi x0 x3 x4 p n (sl 256 h)) (gh x0 x1 x2 x5 x6 p n (sl 256 h)) (rg x0 x1 x2 x3 x4 x5 x6 p n h) (hpre x0 x1 x2 p n h)
      = val_main_v50 (F := Ideal) a0 a1 a2 a3 a4 a5 a6 a7 a8 (ix3 (gb t p) n h) := by
  rw [val_main_v50_apply, val_main_v48_apply, val_main_v47_apply, val_main_v46_apply, val_main_cst_5_apply, val_main_v49_apply, val_main_v45_apply,
    val_main_v44_apply, val_main_v43_apply, val_main_v41_apply, val_main_v42_apply, val_main_v40_apply, val_main_v39_apply, val_main_cst_4_apply,
    val_main_v38_apply, val_main_v37_apply, val_main_cst_3_apply, val_main_v36_apply, val_main_v35_apply, val_main_v34_apply, val_main_v32_apply,
    val_main_v33_apply]
  have e32 : idx_main_v32 (ix3 (gb t p) n h) = ix3 (gb t p) n (sl 128 h) := by ix_ext
  have e33 : idx_main_v33 (ix3 (gb t p) n h) = ix3 (gb t p) n (sl 128 h) := by ix_ext
  have e41 : idx_main_v41 (ix3 (gb t p) n h) = ix3 (gb t p) n (sl 256 h) := by ix_ext
  have e42 : idx_main_v42 (ix3 (gb t p) n h) = ix3 (gb t p) n (sl 256 h) := by ix_ext
  simp only [e32, e33, e41, e42, ← gi_ref x0 x3 x4 a0 a2 a4 t H0 H3 H4, ← gh_ref x0 x1 x2 x5 x6 a0 a1 a3 a5 a6 a7 a8 t H0 H1 H2 H5 H6, ← rg_ref x0 x1 x2 x3 x4 x5 x6 a0 a1 a2 a3 a4 a5 a6 a7 a8 t H0 H1 H2 H3 H4 H5 H6, ← hpre_ref x0 x1 x2 a0 a1 a6 a7 a8 t H0 H1 H2]
  unfold hvS
  simp only [← sg_eq]
  rfl

theorem hg_ref (H0 : ∀ p n, x0 (ix2 p n) = a0 (ix2 (gb t p) n)) (H1 : ∀ p u n, x1 (ix3 p u n) = a1 (ix3 (gb t p) u n)) (H2 : ∀ v h, x2 (ix2 v h) = tg a6 a7 a8 v h) (H3 : ∀ v g, x3 (ix2 v g) = a2 (ix2 g v)) (H4 : ∀ g, x4 (ix1 g) = a4 (ix1 g)) (H5 : ∀ g h, x5 (ix2 g h) = a3 (ix2 g h)) (H6 : ∀ g, x6 (ix1 g) = a5 (ix1 g)) (p : Fin 16) (h : Fin 128) :
    (∑ n : Fin 256, hvS (gi x0 x3 x4 p n (sl 128 h) + gh x0 x1 x2 x5 x6 p n (sl 128 h)) (gi x0 x3 x4 p n (sl 256 h)) (gh x0 x1 x2 x5 x6 p n (sl 256 h)) (rg x0 x1 x2 x3 x4 x5 x6 p n h) (hpre x0 x1 x2 p n h) * mask n)
      = val_main_v52 (F := Ideal) a0 a1 a2 a3 a4 a5 a6 a7 a8 (ix2 (gb t p) h) := by
  rw [val_main_v52_apply, val_main_cst_6_apply]
  simp only [val_main_v51_apply]
  have e : ∀ k : Fin 254, idx_main_v51 (idx_main_v52 (ix2 (gb t p) h) k) = ix3 (gb t p) (⟨1 + k.val, by omega⟩ : Fin 256) h := fun k => by ix_ext
  simp only [e, ← hv_ref x0 x1 x2 x3 x4 x5 x6 a0 a1 a2 a3 a4 a5 a6 a7 a8 t H0 H1 H2 H3 H4 H5 H6]
  rw [show FloatOps.ofBits (F := Ideal) .f32 0x00000000#32 = 0 from Ideal.ofBits_zero_f32, zero_add]
  exact masked_sum fun n => hvS (gi x0 x3 x4 p n (sl 128 h) + gh x0 x1 x2 x5 x6 p n (sl 128 h)) (gi x0 x3 x4 p n (sl 256 h)) (gh x0 x1 x2 x5 x6 p n (sl 256 h)) (rg x0 x1 x2 x3 x4 x5 x6 p n h) (hpre x0 x1 x2 p n h)

/-- The first 64 output columns: the projection through the first weight matrix. -/
theorem out_lo (H0 : ∀ p n, x0 (ix2 p n) = a0 (ix2 (gb t p) n)) (H1 : ∀ p u n, x1 (ix3 p u n) = a1 (ix3 (gb t p) u n)) (H2 : ∀ v h, x2 (ix2 v h) = tg a6 a7 a8 v h) (H3 : ∀ v g, x3 (ix2 v g) = a2 (ix2 g v)) (H4 : ∀ g, x4 (ix1 g) = a4 (ix1 g)) (H5 : ∀ g h, x5 (ix2 g h) = a3 (ix2 g h)) (H6 : ∀ g, x6 (ix1 g) = a5 (ix1 g)) (p : Fin 16) (j : Fin 64)
    (x7row : Fin 128 → EReal) (x8j : EReal) (H7 : ∀ h, x7row h = a9 (ix2 j h)) (H8 : x8j = a10 (ix1 j)) :
    (∑ h : Fin 128, (∑ n : Fin 256, hvS (gi x0 x3 x4 p n (sl 128 h) + gh x0 x1 x2 x5 x6 p n (sl 128 h)) (gi x0 x3 x4 p n (sl 256 h)) (gh x0 x1 x2 x5 x6 p n (sl 256 h)) (rg x0 x1 x2 x3 x4 x5 x6 p n h) (hpre x0 x1 x2 p n h) * mask n) * x7row h) + x8j
      = val_main_v57 (F := Ideal) a0 a1 a2 a3 a4 a5 a6 a7 a8 a9 a10 (ix2 (gb t p) j) := by
  rw [val_main_v57_apply, val_main_v54_apply, val_main_v56_apply, val_main_v55_apply]
  have e3 : idx_main_v55 (idx_main_v56 (ix2 (gb t p) j)) = ix1 j := by ix_ext
  have el : ∀ k : Fin 128, lidx_main_v54 (ix2 (gb t p) j) k = ix2 (gb t p) k := fun k => by ix_ext
  have er : ∀ k : Fin 128, idx_main_v53 (ridx_main_v54 (ix2 (gb t p) j) k) = ix2 j k := fun k => by ix_ext
  simp only [val_main_v53_apply, e3, el, er, ← hg_ref x0 x1 x2 x3 x4 x5 x6 a0 a1 a2 a3 a4 a5 a6 a7 a8 t H0 H1 H2 H3 H4 H5 H6, H7, H8]
  rfl

/-- The last 64 output columns: the projection through the second weight matrix. -/
theorem out_hi (H0 : ∀ p n, x0 (ix2 p n) = a0 (ix2 (gb t p) n)) (H1 : ∀ p u n, x1 (ix3 p u n) = a1 (ix3 (gb t p) u n)) (H2 : ∀ v h, x2 (ix2 v h) = tg a6 a7 a8 v h) (H3 : ∀ v g, x3 (ix2 v g) = a2 (ix2 g v)) (H4 : ∀ g, x4 (ix1 g) = a4 (ix1 g)) (H5 : ∀ g h, x5 (ix2 g h) = a3 (ix2 g h)) (H6 : ∀ g, x6 (ix1 g) = a5 (ix1 g)) (p : Fin 16) (j : Fin 64)
    (x7row : Fin 128 → EReal) (x8j : EReal) (H7 : ∀ h, x7row h = a11 (ix2 j h)) (H8 : x8j = a12 (ix1 j)) :
    (∑ h : Fin 128, (∑ n : Fin 256, hvS (gi x0 x3 x4 p n (sl 128 h) + gh x0 x1 x2 x5 x6 p n (sl 128 h)) (gi x0 x3 x4 p n (sl 256 h)) (gh x0 x1 x2 x5 x6 p n (sl 256 h)) (rg x0 x1 x2 x3 x4 x5 x6 p n h) (hpre x0 x1 x2 p n h) * mask n) * x7row h) + x8j
      = val_main_v62 (F := Ideal) a0 a1 a2 a3 a4 a5 a6 a7 a8 a11 a12 (ix2 (gb t p) j) := by
  rw [val_main_v62_apply, val_main_v59_apply, val_main_v61_apply, val_main_v60_apply]
  have e3 : idx_main_v60 (idx_main_v61 (ix2 (gb t p) j)) = ix1 j := by ix_ext
  have el : ∀ k : Fin 128, lidx_main_v59 (ix2 (gb t p) j) k = ix2 (gb t p) k := fun k => by ix_ext
  have er : ∀ k : Fin 128, idx_main_v58 (ridx_main_v59 (ix2 (gb t p) j) k) = ix2 j k := fun k => by ix_ext
  simp only [val_main_v58_apply, e3, el, er, ← hg_ref x0 x1 x2 x3 x4 x5 x6 a0 a1 a2 a3 a4 a5 a6 a7 a8 t H0 H1 H2 H3 H4 H5 H6, H7, H8]
  rfl

end Cert.Bridge

end
-- ==== Proof.BridgeC.lean ====
/-
  One grid point's stored block against the reference's two results.

  The kernel's host side prepares four tables before the launch: the per-type table of gated messages
  `σ(Wgᵀ + bg) · Wmᵀ`, the transposed input weights, and the two output weight matrices and biases stacked.
  Each is read here at an index as the argument entry it is.  With them, the block that grid point `t` stores is,
  at `(p, j)`, the reference's first result at `(16·t + p, j)` for `j < 64` and its second result at
  `(16·t + p, j − 64)` for `j ≥ 64`.
-/
import proofs.«116194_j70265664963195_2_alg».proof.Proof.BridgeB

noncomputable section

open scoped BigOperators

namespace Cert.Bridge

open Idealize.ShloMosaic Idealize.ShloMosaic.ValueIdx Cert.KernelIdeal.Stages Cert.ReferenceIdeal.Read Cert.KernelIdeal.Gen
open Cert.ReferenceIdeal (S512x256 S512x256x256 S384x32 S384x128 S384 S128x32 S128 S64x128 S64 S512x256x32 S512x256x128 S512x256x384 S512x254x128 S512x128 S512x64 S128x64 S_)
open Cert.KernelIdeal (S16x256 S16x256x256 S32x128 S32x384 S128x128 S16x256x128 S16x256x384 S16x128 S1x128)

variable (a0 : (⟨S512x256, .i32⟩ : BufTy).Contents (Elt Ideal)) (a1 : (⟨S512x256x256, .i32⟩ : BufTy).Contents (Elt Ideal))
  (a2 : (⟨S384x32, .f32⟩ : BufTy).Contents (Elt Ideal)) (a3 : (⟨S384x128, .f32⟩ : BufTy).Contents (Elt Ideal))
  (a4 a5 : (⟨S384, .f32⟩ : BufTy).Contents (Elt Ideal)) (a6 : (⟨S128x32, .f32⟩ : BufTy).Contents (Elt Ideal))
  (a7 : (⟨S128, .f32⟩ : BufTy).Contents (Elt Ideal)) (a8 : (⟨S128x32, .f32⟩ : BufTy).Contents (Elt Ideal))
  (a9 a11 : (⟨S64x128, .f32⟩ : BufTy).Contents (Elt Ideal)) (a10 a12 : (⟨S64, .f32⟩ : BufTy).Contents (Elt Ideal))

/-- The per-type table of gated messages, as the host computes it. -/
def TG : FVec Ideal S32x128 .bf16 :=
  truncf .bf16 (mulf (Host.divf (F := Ideal) (broadcastInDim S32x128 ![] Cert.KernelIdeal.Facts₀.bcast_S_S32x128 (constant (F := Ideal) S_ .f32 0x3F800000#32))
    (addf (broadcastInDim S32x128 ![] Cert.KernelIdeal.Facts₀.bcast_S_S32x128 (constant (F := Ideal) S_ .f32 0x3F800000#32))
      (Host.exp (F := Ideal) (Host.negf (F := Ideal) (addf (transpose S32x128 [1, 0] a6 Cert.KernelIdeal.Facts₀.transposes_S128x32_S32x128_1_0)
        (broadcastInDim S32x128 ![0, 1] Cert.KernelIdeal.Facts₀.bcast_S1x128_S32x128_0_1 (broadcastInDim S1x128 ![1] Cert.KernelIdeal.Facts₀.bcast_S128_S1x128_1 a7)))))))
    (transpose S32x128 [1, 0] a8 Cert.KernelIdeal.Facts₀.transposes_S128x32_S32x128_1_0)) Cert.KernelIdeal.Facts₀.bitsLt_bf16_f32

theorem TG_apply (v : Fin 32) (h : Fin 128) : TG a6 a7 a8 (ix2 v h) = tg a6 a7 a8 v h := by
  have e6 : transpose S32x128 [1, 0] a6 Cert.KernelIdeal.Facts₀.transposes_S128x32_S32x128_1_0 (ix2 v h) = a6 (ix2 h v) :=
    transpose_apply _ _ _ _ (ix2 h v) (fun b => match b with | ⟨0, _⟩ => rfl | ⟨1, _⟩ => rfl)
  have e8 : transpose S32x128 [1, 0] a8 Cert.KernelIdeal.Facts₀.transposes_S128x32_S32x128_1_0 (ix2 v h) = a8 (ix2 h v) :=
    transpose_apply _ _ _ _ (ix2 h v) (fun b => match b with | ⟨0, _⟩ => rfl | ⟨1, _⟩ => rfl)
  have e7 : broadcastInDim S32x128 ![0, 1] Cert.KernelIdeal.Facts₀.bcast_S1x128_S32x128_0_1 (broadcastInDim S1x128 ![1] Cert.KernelIdeal.Facts₀.bcast_S128_S1x128_1 a7) (ix2 v h) = a7 (ix1 h) := by
    refine (broadcastInDim_apply _ _ _ _ (ix2 (0 : Fin 1) h) (fun a => match a with
      | ⟨0, _⟩ => by show 0 = if (1 : Nat) = 1 then 0 else _; rw [if_pos rfl]
      | ⟨1, _⟩ => by show h.val = if (128 : Nat) = 1 then 0 else h.val; rw [if_neg (by decide)])).trans ?_
    exact broadcastInDim_apply _ _ _ _ (ix1 h) (fun a => match a with
      | ⟨0, _⟩ => by show h.val = if (128 : Nat) = 1 then 0 else h.val; rw [if_neg (by decide)])
  unfold tg sg
  rw [← e6, ← e8, ← e7]
  rfl

/-- The transposed input weights, as the host computes them. -/
def TGI : FVec Ideal S32x384 .bf16 :=
  truncf .bf16 (transpose S32x384 [1, 0] a2 Cert.KernelIdeal.Facts₀.transposes_S384x32_S32x384_1_0) Cert.KernelIdeal.Facts₀.bitsLt_bf16_f32

theorem TGI_apply (v : Fin 32) (g : Fin 384) : TGI a2 (ix2 v g) = a2 (ix2 g v) :=
  transpose_apply _ _ _ _ (ix2 g v) (fun b => match b with | ⟨0, _⟩ => rfl | ⟨1, _⟩ => rfl)

/-- The two output weight matrices stacked. -/
def W12 : FVec Ideal S128x128 .f32 :=
  concatenate S128x128 0 [⟨S64x128, a9⟩, ⟨S64x128, a11⟩] Cert.KernelIdeal.Facts₀.concatenates_S64x128_S64x128_S128x128_d0
/-- The two output biases stacked. -/
def B12 : FVec Ideal S128 .f32 :=
  concatenate S128 0 [⟨S64, a10⟩, ⟨S64, a12⟩] Cert.KernelIdeal.Facts₀.concatenates_S64_S64_S128_d0

theorem W12_lo (j : Fin 64) (h : Fin 128) : W12 a9 a11 (ix2 (⟨j.val, by omega⟩ : Fin 128) h) = a9 (ix2 j h) := by
  unfold W12
  exact concatenate_pair_apply_left 0 a9 a11 _ (ix2 (⟨j.val, by omega⟩ : Fin 128) h) rfl (ix2 j h)
    (fun b => match b with | ⟨0, _⟩ => rfl | ⟨1, _⟩ => rfl)
theorem W12_hi (j : Fin 64) (h : Fin 128) : W12 a9 a11 (ix2 (⟨64 + j.val, by omega⟩ : Fin 128) h) = a11 (ix2 j h) := by
  unfold W12
  exact concatenate_pair_apply_right 0 a9 a11 _ (ix2 (⟨64 + j.val, by omega⟩ : Fin 128) h) rfl rfl (ix2 j h)
    (fun b hb => match b with | ⟨0, _⟩ => absurd rfl hb | ⟨1, _⟩ => rfl) (by show j.val + 64 = 64 + j.val; omega)
theorem B12_lo (j : Fin 64) : B12 a10 a12 (ix1 (⟨j.val, by omega⟩ : Fin 128)) = a10 (ix1 j) := by
  unfold B12
  exact concatenate_pair_apply_left 0 a10 a12 _ (ix1 (⟨j.val, by omega⟩ : Fin 128)) rfl (ix1 j)
    (fun b => match b with | ⟨0, _⟩ => rfl)
theorem B12_hi (j : Fin 64) : B12 a10 a12 (ix1 (⟨64 + j.val, by omega⟩ : Fin 128)) = a12 (ix1 j) := by
  unfold B12
  exact concatenate_pair_apply_right 0 a10 a12 _ (ix1 (⟨64 + j.val, by omega⟩ : Fin 128)) rfl rfl (ix1 j)
    (fun b hb => match b with | ⟨0, _⟩ => absurd rfl hb) (by show j.val + 64 = 64 + j.val; omega)

/-- The kernel's result array, entry by entry: the reference's two results side by side. -/
def Gc (P : Fin 512) (j : Fin 128) : EReal :=
  if h : j.val < 64 then val_main_v57 (F := Ideal) a0 a1 a2 a3 a4 a5 a6 a7 a8 a9 a10 (ix2 P (⟨j.val, h⟩ : Fin 64))
  else val_main_v62 (F := Ideal) a0 a1 a2 a3 a4 a5 a6 a7 a8 a11 a12 (ix2 P (⟨j.val - 64, by omega⟩ : Fin 64))

variable (x0 : Vec Ideal S16x256 .i32) (x1 : Vec Ideal S16x256x256 .i32) (x2 : FVec Ideal S32x128 .bf16)
  (x3 : FVec Ideal S32x384 .bf16) (x4 : FVec Ideal S384 .f32) (x5 : FVec Ideal S384x128 .f32) (x6 : FVec Ideal S384 .f32)
  (x7 : FVec Ideal S128x128 .f32) (x8 : FVec Ideal S128 .f32)
variable (t : Fin 32)

/-- The block grid point `t` stores, at `(p, j)`. -/
theorem block_value (H0 : ∀ p n, x0 (ix2 p n) = a0 (ix2 (gb t p) n)) (H1 : ∀ p u n, x1 (ix3 p u n) = a1 (ix3 (gb t p) u n))
    (H2' : ∀ v h, x2 (ix2 v h) = TG a6 a7 a8 (ix2 v h)) (H3' : ∀ v g, x3 (ix2 v g) = TGI a2 (ix2 v g))
    (H4 : ∀ g, x4 (ix1 g) = a4 (ix1 g)) (H5 : ∀ g h, x5 (ix2 g h) = a3 (ix2 g h)) (H6 : ∀ g, x6 (ix1 g) = a5 (ix1 g))
    (H7 : ∀ j h, x7 (ix2 j h) = W12 a9 a11 (ix2 j h)) (H8 : ∀ j, x8 (ix1 j) = B12 a10 a12 (ix1 j))
    (p : Fin 16) (j : Fin 128) :
    k0_pay1 (F := Ideal) (k0_pay3 x0 x3 x4) (k0_pay4 x0 x2 x1) (k0_pay5 x0 x2 x1 x5 x6) (k0_pay6 x0 x2 x3 x4 x1 x5 x6) (k0_pay7 x0 x3 x4)
      (k0_pay8 x0 x2 x1 x5 x6) x7 x8 (ix2 p j)
      = Gc a0 a1 a2 a3 a4 a5 a6 a7 a8 a9 a11 a10 a12 (gb t p) j := by
  have H2 : ∀ v h, x2 (ix2 v h) = tg a6 a7 a8 v h := fun v h => (H2' v h).trans (TG_apply a6 a7 a8 v h)
  have H3 : ∀ v g, x3 (ix2 v g) = a2 (ix2 g v) := fun v g => (H3' v g).trans (TGI_apply a2 v g)
  rw [pay1_apply]
  simp only [pay3_apply, pay4_apply, pay5_apply, pay6_apply, pay7_apply, pay8_apply]
  unfold Gc
  by_cases hj : j.val < 64
  · rw [dif_pos hj]
    exact out_lo x0 x1 x2 x3 x4 x5 x6 a0 a1 a2 a3 a4 a5 a6 a7 a8 a9 a10 t H0 H1 H2 H3 H4 H5 H6 p ⟨j.val, hj⟩
      (fun h => x7 (ix2 j h)) (x8 (ix1 j)) (fun h => (H7 j h).trans (W12_lo a9 a11 ⟨j.val, hj⟩ h)) ((H8 j).trans (B12_lo a10 a12 ⟨j.val, hj⟩))
  · rw [dif_neg hj]
    have hj' : j.val - 64 < 64 := by omega
    have ej : (⟨64 + (j.val - 64), by omega⟩ : Fin 128) = j := Fin.ext (by show 64 + (j.val - 64) = j.val; omega)
    exact out_hi x0 x1 x2 x3 x4 x5 x6 a0 a1 a2 a3 a4 a5 a6 a7 a8 a11 a12 t H0 H1 H2 H3 H4 H5 H6 p ⟨j.val - 64, hj'⟩
      (fun h => x7 (ix2 j h)) (x8 (ix1 j))
      (fun h => (H7 j h).trans ((congrArg (fun q => W12 a9 a11 (ix2 q h)) ej.symm).trans (W12_hi a9 a11 ⟨j.val - 64, hj'⟩ h)))
      ((H8 j).trans ((congrArg (fun q => B12 a10 a12 (ix1 q)) ej.symm).trans (B12_hi a10 a12 ⟨j.val - 64, hj'⟩)))

end Cert.Bridge

end
-- ==== Proof.KFinal.lean ====
/-
  The kernel's run at the extended reals, read as values.

  Before the launch the host leaves four tables in memory; the launch's 32 grid points each store one
  `[16, 128]` block of the result array, block `t` covering graphs `16·t … 16·t + 15`; the blocks tile the array,
  so after the run the array is, entry by entry, the reference's two results side by side; the two slices the
  host takes afterwards are then the reference's two results.
-/
import proofs.«116194_j70265664963195_2_alg».proof.Proof.Gen.KernelIdeal.Frame
import proofs.«116194_j70265664963195_2_alg».proof.Proof.BridgeC
import Idealize.ShloMosaic.Lib.StableHlo.Run
import Idealize.ShloMosaic.Lib.Pipeline.Value

noncomputable section

open scoped BigOperators

set_option maxRecDepth 16384

namespace Cert.KernelIdeal.Final

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.Bridge Cert.ReferenceIdeal.Read

variable (m : (ℓ : Loc nD τ sig) → Buf (Elt Ideal) ℓ) (ρ : Dev nD → PrngReg)

/-- The kernel's result array, entry by entry. -/
def G (c : Dev nD) : S512x128.Idx → EReal := fun i => Gc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg10)) (m ((c : Thread nD τ).loc main_arg12)) (i 0) (i 1)

/-! ## What the host leaves for the launch -/

theorem V_v12 (c : Dev nD) : V m c main_v12 = TG (m ((c : Thread nD τ).loc main_arg6)) (m ((c : Thread nD τ).loc main_arg7)) (m ((c : Thread nD τ).loc main_arg8)) := by
  show StableHlo.after hostOps0 (fun b => m (c, b)) (Proc.devRef .tc main_v12) = _
  after_results_simp
  rfl
theorem V_v14 (c : Dev nD) : V m c main_v14 = TGI (m ((c : Thread nD τ).loc main_arg2)) := by
  show StableHlo.after hostOps0 (fun b => m (c, b)) (Proc.devRef .tc main_v14) = _
  after_results_simp
  rfl
set_option maxHeartbeats 4000000 in
theorem V_v15 (c : Dev nD) : V m c main_v15 = W12 (m ((c : Thread nD τ).loc main_arg9)) (m ((c : Thread nD τ).loc main_arg11)) := by
  show StableHlo.after hostOps0 (fun b => m (c, b)) (Proc.devRef .tc main_v15) = _
  after_results
  rfl
set_option maxHeartbeats 4000000 in
theorem V_v16 (c : Dev nD) : V m c main_v16 = B12 (m ((c : Thread nD τ).loc main_arg10)) (m ((c : Thread nD τ).loc main_arg12)) := by
  show StableHlo.after hostOps0 (fun b => m (c, b)) (Proc.devRef .tc main_v16) = _
  after_results
  rfl

/-! ## The blocks of one grid point -/

/-- The grid point as a number below 32. -/
def t32 (t : Fin cfg0.N) : Fin 32 := ⟨t.val, Nat.lt_of_lt_of_eq t.isLt N_0⟩

/-- The printed index maps, decided over the grid: the two batched inputs and the output move with the grid point,
    every other window stays at block 0. -/
theorem idx_facts : ∀ t : Fin cfg0.N, win0_0.index t (0 : Fin 2) = t.val
    ∧ win0_0.index t (1 : Fin 2) = 0
    ∧ win0_1.index t (0 : Fin 3) = t.val
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = t.val
    ∧ win0_9.index t (1 : Fin 2) = 0 :=
  (by decide +kernel : ∀ t : Fin grid0.N, _)

theorem blk0 (c : Dev nD) (t : Fin cfg0.N) (p : Fin 16) (n : Fin 256) :
    (iblk m c 0 t : Vec Ideal S16x256 .i32) (ix2 p n) = (m ((c : Thread nD τ).loc main_arg0)) (ix2 (gb (t32 t) p) n) := by
  obtain ⟨e00, e01, e10, e11, e12, e20, e21, e30, e31, e40, e50, e51, e60, e70, e71, e80, e90, e91⟩ := idx_facts t
  show V m c main_arg0 (((cfg0.win 0).blk t).view.emb (ix2 p n)) = _
  refine (congrFun (V_main_arg0 m c) _).trans (congrArg _ ?_)
  funext a; apply Fin.ext
  match a with
  | ⟨0, _⟩ => show win0_0.index t (0 : Fin 2) * 16 + 1 * p.val = t.val * 16 + p.val; rw [e00]; omega
  | ⟨1, _⟩ => show win0_0.index t (1 : Fin 2) * 256 + 1 * n.val = n.val; rw [e01]; omega

theorem blk1 (c : Dev nD) (t : Fin cfg0.N) (p : Fin 16) (u n : Fin 256) :
    (iblk m c 1 t : Vec Ideal S16x256x256 .i32) (ix3 p u n) = (m ((c : Thread nD τ).loc main_arg1)) (ix3 (gb (t32 t) p) u n) := by
  obtain ⟨e00, e01, e10, e11, e12, e20, e21, e30, e31, e40, e50, e51, e60, e70, e71, e80, e90, e91⟩ := idx_facts t
  show V m c main_arg1 (((cfg0.win 1).blk t).view.emb (ix3 p u n)) = _
  refine (congrFun (V_main_arg1 m c) _).trans (congrArg _ ?_)
  funext a; apply Fin.ext
  match a with
  | ⟨0, _⟩ => show win0_1.index t (0 : Fin 3) * 16 + 1 * p.val = t.val * 16 + p.val; rw [e10]; omega
  | ⟨1, _⟩ => show win0_1.index t (1 : Fin 3) * 256 + 1 * u.val = u.val; rw [e11]; omega
  | ⟨2, _⟩ => show win0_1.index t (2 : Fin 3) * 256 + 1 * n.val = n.val; rw [e12]; omega

theorem blk2 (c : Dev nD) (t : Fin cfg0.N) (v : Fin 32) (h : Fin 128) :
    (iblk m c 2 t : FVec Ideal S32x128 .bf16) (ix2 v h) = TG (m ((c : Thread nD τ).loc main_arg6)) (m ((c : Thread nD τ).loc main_arg7)) (m ((c : Thread nD τ).loc main_arg8)) (ix2 v h) := by
  obtain ⟨e00, e01, e10, e11, e12, e20, e21, e30, e31, e40, e50, e51, e60, e70, e71, e80, e90, e91⟩ := idx_facts t
  show V m c main_v12 (((cfg0.win 2).blk t).view.emb (ix2 v h)) = _
  refine (congrFun (V_v12 m c) _).trans (congrArg _ ?_)
  funext a; apply Fin.ext
  match a with
  | ⟨0, _⟩ => show win0_2.index t (0 : Fin 2) * 32 + 1 * v.val = v.val; rw [e20]; omega
  | ⟨1, _⟩ => show win0_2.index t (1 : Fin 2) * 128 + 1 * h.val = h.val; rw [e21]; omega

theorem blk3 (c : Dev nD) (t : Fin cfg0.N) (v : Fin 32) (g : Fin 384) :
    (iblk m c 3 t : FVec Ideal S32x384 .bf16) (ix2 v g) = TGI (m ((c : Thread nD τ).loc main_arg2)) (ix2 v g) := by
  obtain ⟨e00, e01, e10, e11, e12, e20, e21, e30, e31, e40, e50, e51, e60, e70, e71, e80, e90, e91⟩ := idx_facts t
  show V m c main_v14 (((cfg0.win 3).blk t).view.emb (ix2 v g)) = _
  refine (congrFun (V_v14 m c) _).trans (congrArg _ ?_)
  funext a; apply Fin.ext
  match a with
  | ⟨0, _⟩ => show win0_3.index t (0 : Fin 2) * 32 + 1 * v.val = v.val; rw [e30]; omega
  | ⟨1, _⟩ => show win0_3.index t (1 : Fin 2) * 384 + 1 * g.val = g.val; rw [e31]; omega

theorem blk4 (c : Dev nD) (t : Fin cfg0.N) (g : Fin 384) :
    (iblk m c 4 t : FVec Ideal S384 .f32) (ix1 g) = (m ((c : Thread nD τ).loc main_arg4)) (ix1 g) := by
  obtain ⟨e00, e01, e10, e11, e12, e20, e21, e30, e31, e40, e50, e51, e60, e70, e71, e80, e90, e91⟩ := idx_facts t
  show V m c main_arg4 (((cfg0.win 4).blk t).view.emb (ix1 g)) = _
  refine (congrFun (V_main_arg4 m c) _).trans (congrArg _ ?_)
  funext a; apply Fin.ext
  match a with
  | ⟨0, _⟩ => show win0_4.index t (0 : Fin 1) * 384 + 1 * g.val = g.val; rw [e40]; omega

theorem blk5 (c : Dev nD) (t : Fin cfg0.N) (g : Fin 384) (h : Fin 128) :
    (iblk m c 5 t : FVec Ideal S384x128 .f32) (ix2 g h) = (m ((c : Thread nD τ).loc main_arg3)) (ix2 g h) := by
  obtain ⟨e00, e01, e10, e11, e12, e20, e21, e30, e31, e40, e50, e51, e60, e70, e71, e80, e90, e91⟩ := idx_facts t
  show V m c main_arg3 (((cfg0.win 5).blk t).view.emb (ix2 g h)) = _
  refine (congrFun (V_main_arg3 m c) _).trans (congrArg _ ?_)
  funext a; apply Fin.ext
  match a with
  | ⟨0, _⟩ => show win0_5.index t (0 : Fin 2) * 384 + 1 * g.val = g.val; rw [e50]; omega
  | ⟨1, _⟩ => show win0_5.index t (1 : Fin 2) * 128 + 1 * h.val = h.val; rw [e51]; omega

theorem blk6 (c : Dev nD) (t : Fin cfg0.N) (g : Fin 384) :
    (iblk m c 6 t : FVec Ideal S384 .f32) (ix1 g) = (m ((c : Thread nD τ).loc main_arg5)) (ix1 g) := by
  obtain ⟨e00, e01, e10, e11, e12, e20, e21, e30, e31, e40, e50, e51, e60, e70, e71, e80, e90, e91⟩ := idx_facts t
  show V m c main_arg5 (((cfg0.win 6).blk t).view.emb (ix1 g)) = _
  refine (congrFun (V_main_arg5 m c) _).trans (congrArg _ ?_)
  funext a; apply Fin.ext
  match a with
  | ⟨0, _⟩ => show win0_6.index t (0 : Fin 1) * 384 + 1 * g.val = g.val; rw [e60]; omega

theorem blk7 (c : Dev nD) (t : Fin cfg0.N) (j : Fin 128) (h : Fin 128) :
    (iblk m c 7 t : FVec Ideal S128x128 .f32) (ix2 j h) = W12 (m ((c : Thread nD τ).loc main_arg9)) (m ((c : Thread nD τ).loc main_arg11)) (ix2 j h) := by
  obtain ⟨e00, e01, e10, e11, e12, e20, e21, e30, e31, e40, e50, e51, e60, e70, e71, e80, e90, e91⟩ := idx_facts t
  show V m c main_v15 (((cfg0.win 7).blk t).view.emb (ix2 j h)) = _
  refine (congrFun (V_v15 m c) _).trans (congrArg _ ?_)
  funext a; apply Fin.ext
  match a with
  | ⟨0, _⟩ => show win0_7.index t (0 : Fin 2) * 128 + 1 * j.val = j.val; rw [e70]; omega
  | ⟨1, _⟩ => show win0_7.index t (1 : Fin 2) * 128 + 1 * h.val = h.val; rw [e71]; omega

theorem blk8 (c : Dev nD) (t : Fin cfg0.N) (g : Fin 128) :
    (iblk m c 8 t : FVec Ideal S128 .f32) (ix1 g) = B12 (m ((c : Thread nD τ).loc main_arg10)) (m ((c : Thread nD τ).loc main_arg12)) (ix1 g) := by
  obtain ⟨e00, e01, e10, e11, e12, e20, e21, e30, e31, e40, e50, e51, e60, e70, e71, e80, e90, e91⟩ := idx_facts t
  show V m c main_v16 (((cfg0.win 8).blk t).view.emb (ix1 g)) = _
  refine (congrFun (V_v16 m c) _).trans (congrArg _ ?_)
  funext a; apply Fin.ext
  match a with
  | ⟨0, _⟩ => show win0_8.index t (0 : Fin 1) * 128 + 1 * g.val = g.val; rw [e80]; omega

/-! ## The block a grid point writes back -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The stored block of grid point `t` at `y` is the result array's entry at `y`'s place in block `t`. -/
theorem block_at (c : Dev nD) (t : Fin cfg0.N) (y : S16x128.Idx) :
    k0_pay1 (F := Ideal) (k0_pay3 (iblk m c 0 t) (iblk m c 3 t) (iblk m c 4 t)) (k0_pay4 (iblk m c 0 t) (iblk m c 2 t) (iblk m c 1 t))
      (k0_pay5 (iblk m c 0 t) (iblk m c 2 t) (iblk m c 1 t) (iblk m c 5 t) (iblk m c 6 t))
      (k0_pay6 (iblk m c 0 t) (iblk m c 2 t) (iblk m c 3 t) (iblk m c 4 t) (iblk m c 1 t) (iblk m c 5 t) (iblk m c 6 t))
      (k0_pay7 (iblk m c 0 t) (iblk m c 3 t) (iblk m c 4 t)) (k0_pay8 (iblk m c 0 t) (iblk m c 2 t) (iblk m c 1 t) (iblk m c 5 t) (iblk m c 6 t))
      (iblk m c 7 t) (iblk m c 8 t) y
      = G m c (((cfg0.win 9).blk t).view.emb y) := by
  obtain ⟨p, j, rfl⟩ : ∃ (p : Fin 16) (j : Fin 128), y = ix2 p j := ⟨y 0, y 1, eq_ix2 y⟩
  obtain ⟨e00, e01, e10, e11, e12, e20, e21, e30, e31, e40, e50, e51, e60, e70, e71, e80, e90, e91⟩ := idx_facts t
  have hemb : ((cfg0.win 9).blk t).view.emb (ix2 p j) = ix2 (gb (t32 t) p) j := by
    funext a; apply Fin.ext
    match a with
    | ⟨0, _⟩ => show win0_9.index t (0 : Fin 2) * 16 + 1 * p.val = t.val * 16 + p.val; rw [e90]; omega
    | ⟨1, _⟩ => show win0_9.index t (1 : Fin 2) * 128 + 1 * j.val = j.val; rw [e91]; omega
  rw [hemb]
  exact block_value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg10)) (m ((c : Thread nD τ).loc main_arg12))
    (iblk m c 0 t) (iblk m c 1 t) (iblk m c 2 t) (iblk m c 3 t) (iblk m c 4 t) (iblk m c 5 t) (iblk m c 6 t) (iblk m c 7 t) (iblk m c 8 t) (t32 t)
    (blk0 m c t) (blk1 m c t) (blk2 m c t) (blk3 m c t) (blk4 m c t) (blk5 m c t) (blk6 m c t) (blk7 m c t) (blk8 m c t) p j

theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  unfold out0_9
  rw [View.canon_unit_zero hz2]
  simp only [View.ld_unit_zero (S := S16x256) hz2, View.ld_unit_zero (S := S32x384) hz2, View.ld_unit_zero (S := S384) hz1,
    View.ld_unit_zero (S := S32x128) hz2, View.ld_unit_zero (S := S16x256x256) hz3, View.ld_unit_zero (S := S384x128) hz2,
    View.ld_unit_zero (S := S128x128) hz2, View.ld_unit_zero (S := S128) hz1]
  funext y
  exact block_at m c t y

/-! ## The blocks tile the array -/

theorem mem_blk9 (t : Fin cfg0.N) (i : S512x128.Idx) :
    i ∈ ((cfg0.win 9).blk t).view.set ↔ ∀ a : Fin 2, win0_9.index t a * S16x128.size a ≤ (i a).val ∧ (i a).val < win0_9.index t a * S16x128.size a + S16x128.size a := by
  show i ∈ ((View.whole main_v17).slice (win0_9.rect t)).set ↔ _
  rw [View.set_slice_whole, Rect.mem_set_unit]
  exact Iff.rfl

/-- After the run the result array is `G`: rows `r` lie in the block of grid point `r / 16`. -/
theorem final9 (c : Dev nD) : (dats m 0 c).arrAt 9 cfg0.N = G m c :=
  (dats m 0 c).arrAt_eq_of_cover 9 (G m c) (fun t _ => flushed_eq m c t) (fun i => by
    have hi0 : (i 0).val < 512 := (i 0).isLt
    have hi1 : (i 1).val < 128 := (i 1).isLt
    have hN : cfg0.N = 32 := N_0
    have hq : (i 0).val / 16 < cfg0.N := by rw [hN]; omega
    refine ⟨⟨(i 0).val / 16, hq⟩, flush0_9 _, ?_⟩
    rw [mem_blk9]
    obtain ⟨e00, e01, e10, e11, e12, e20, e21, e30, e31, e40, e50, e51, e60, e70, e71, e80, e90, e91⟩ := idx_facts ⟨(i 0).val / 16, hq⟩
    intro a
    match a with
    | ⟨0, _⟩ =>
      show win0_9.index ⟨(i 0).val / 16, hq⟩ (0 : Fin 2) * 16 ≤ (i 0).val ∧ (i 0).val < win0_9.index ⟨(i 0).val / 16, hq⟩ (0 : Fin 2) * 16 + 16
      rw [e90]; show (i 0).val / 16 * 16 ≤ (i 0).val ∧ (i 0).val < (i 0).val / 16 * 16 + 16; omega
    | ⟨1, _⟩ =>
      show win0_9.index ⟨(i 0).val / 16, hq⟩ (1 : Fin 2) * 128 ≤ (i 1).val ∧ (i 1).val < win0_9.index ⟨(i 0).val / 16, hq⟩ (1 : Fin 2) * 128 + 128
      rw [e91]; omega)

/-! ## The two slices the host takes -/

theorem G_lo (c : Dev nD) :
    extractStridedSlice S512x64 ![0, 0] (G m c) Facts₀.slices_S512x128_S512x64_0_0 = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨q, j, rfl⟩ : ∃ (q : Fin 512) (j : Fin 64), i = ix2 q j := ⟨i 0, i 1, eq_ix2 i⟩
  refine (extractStridedSlice_apply _ _ _ _ (ix2 q (⟨j.val, by omega⟩ : Fin 128)) (fun a => match a with
    | ⟨0, _⟩ => by show q.val = 0 + q.val; omega
    | ⟨1, _⟩ => by show j.val = 0 + j.val; omega)).trans ?_
  show Gc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg10)) (m ((c : Thread nD τ).loc main_arg12)) q (⟨j.val, _⟩ : Fin 128) = _
  unfold Gc
  rw [dif_pos (show (⟨j.val, _⟩ : Fin 128).val < 64 from j.isLt)]

theorem G_hi (c : Dev nD) :
    extractStridedSlice S512x64 ![0, 64] (G m c) Facts₀.slices_S512x128_S512x64_0_64 = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) := by
  funext i
  obtain ⟨q, j, rfl⟩ : ∃ (q : Fin 512) (j : Fin 64), i = ix2 q j := ⟨i 0, i 1, eq_ix2 i⟩
  refine (extractStridedSlice_apply _ _ _ _ (ix2 q (⟨64 + j.val, by omega⟩ : Fin 128)) (fun a => match a with
    | ⟨0, _⟩ => by show q.val = 0 + q.val; omega
    | ⟨1, _⟩ => rfl)).trans ?_
  show Gc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg10)) (m ((c : Thread nD τ).loc main_arg12)) q (⟨64 + j.val, _⟩ : Fin 128) = _
  unfold Gc
  rw [dif_neg (show ¬ (⟨64 + j.val, _⟩ : Fin 128).val < 64 from by show ¬ 64 + j.val < 64; omega)]
  exact congrArg (fun k : Fin 64 => val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (ix2 q k)) (Fin.ext (by show 64 + j.val - 64 = j.val; omega))

theorem tail18 (c : Dev nD) :
    Pipeline.afterTail₀ cfgs (dats m) 0 (V0 m) [hostOps1] c main_v18 = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  show StableHlo.after hostOps1 _ (Proc.devRef .tc main_v18) = _
  after_results
  refine Eq.trans ?_ (G_lo m c)
  exact congrArg (fun x => extractStridedSlice S512x64 ![0, 0] x Facts₀.slices_S512x128_S512x64_0_0)
    ((Pipeline.withArrays_arr spec0 launch0.win.arr_inj c (V0 m c) (fun w => (dats m 0 c).arrAt w cfg0.N) 9).trans (final9 m c))

theorem tail19 (c : Dev nD) :
    Pipeline.afterTail₀ cfgs (dats m) 0 (V0 m) [hostOps1] c main_v19 = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) := by
  unfold Pipeline.afterTail₀
  show StableHlo.after hostOps1 _ (Proc.devRef .tc main_v19) = _
  after_results
  refine Eq.trans ?_ (G_hi m c)
  exact congrArg (fun x => extractStridedSlice S512x64 ![0, 64] x Facts₀.slices_S512x128_S512x64_0_64)
    ((Pipeline.withArrays_arr spec0 launch0.win.arr_inj c (V0 m c) (fun w => (dats m 0 c).arrAt w cfg0.N) 9).trans (final9 m c))

/-! ## The run, read -/

/-- Every weakly fair execution of the kernel's program terminates with its two results at the reference's two
    values of the argument arrays, and the argument arrays unchanged. -/
theorem run : θ_run defs (onTc (τ := τ) (main (F := Ideal))) ⟨m, fun _ => 0, ρ⟩ fun r => ∀ c : Dev nD,
      r.2.mem ((c.tc : Thread nD τ).loc main_v18) = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v19) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨
      ((h c).2 main_v18 (Pipeline.mem_restRefs_of main_v18 (by decide) (by decide))).trans (tail18 m c),
      ((h c).2 main_v19 (Pipeline.mem_restRefs_of main_v19 (by decide) (by decide))).trans (tail19 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 5).trans (((dats m 0 c).arrAt_in 5 rfl _).trans ((A_eq m c 5).trans (V_main_arg3 m c))),
      ((h c).1 4).trans (((dats m 0 c).arrAt_in 4 rfl _).trans ((A_eq m c 4).trans (V_main_arg4 m c))),
      ((h c).1 6).trans (((dats m 0 c).arrAt_in 6 rfl _).trans ((A_eq m c 6).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩)
    (run_main m ρ)

end Cert.KernelIdeal.Final

end
-- ==== Proof.lean ====
/-
  The proof of `Cert.Claim`: the Pallas kernel of a graph encoder (one-hot vertex types, gated messages, aggregation
  over predecessors, one gated-recurrent update per vertex, the sum of the interior vertices' states, two linear read-outs)
  against its plain array reference, over the extended reals.

  Both programs compute, for graph `b`, vertex `n`, hidden unit `h`:
    gated[b, n, h] = σ(Wg[h, ty] + bg[h]) · Wm[h, ty]            (ty the vertex's type; 0 for a type word outside the table)
    Hpre[b, n, h]  = Σ_u adj[b, u, n] · gated[b, u, h]
    gi = W_ih[·, ty] + b_ih,   gh = W_hh · Hpre + b_hh,   r = σ(gi_r + gh_r),   z = σ(gi_z + gh_z)
    Hv = (1 − z) · tanh(gi_n + r · gh_n) + z · Hpre
    Hg[b, h] = Σ_{n = 1 … 254} Hv[b, n, h],    mu = Hg · W1ᵀ + b1,   logvar = Hg · W2ᵀ + b2.
  The kernel differs from the reference in arrangement only: it looks the vertex type up in a per-type table where the
  reference contracts a one-hot row and applies the gate afterwards (a one-hot row has at most one entry, equal to 1, so the two
  agree — no finiteness is needed, `0 · x = 0` holds on the extended reals); it sums all 256 vertices against a 0/1 mask where
  the reference sums the interior slice; it projects once through `W1` and `W2` stacked and cuts the result in two; it works
  on 16 graphs per grid point.  At the extended reals a change of float format is the identity and a matrix product is a plain
  sum, so each kernel stage over a block equals the reference's stage at the global index (Proof/BridgeA … BridgeC), the 32
  blocks tile the result array, and the two slices of it are the reference's two results (Proof/KFinal).  The three frames are
  the generated ones; the idealization rewrote nothing, so `preserves` is `True`.
-/
import proofs.«116194_j70265664963195_2_alg».proof.Defs
import proofs.«116194_j70265664963195_2_alg».proof.Proof.Gen.Kernel
import proofs.«116194_j70265664963195_2_alg».proof.Proof.Gen.Kernel.Skeleton
import proofs.«116194_j70265664963195_2_alg».proof.Proof.Gen.Kernel.Launch
import proofs.«116194_j70265664963195_2_alg».proof.Proof.Gen.Kernel.Points
import proofs.«116194_j70265664963195_2_alg».proof.Proof.Gen.Kernel.Frame
import proofs.«116194_j70265664963195_2_alg».proof.Proof.Gen.KernelIdeal
import proofs.«116194_j70265664963195_2_alg».proof.Proof.Gen.KernelIdeal.Skeleton
import proofs.«116194_j70265664963195_2_alg».proof.Proof.Gen.KernelIdeal.Launch
import proofs.«116194_j70265664963195_2_alg».proof.Proof.Gen.KernelIdeal.Points
import proofs.«116194_j70265664963195_2_alg».proof.Proof.Gen.KernelIdeal.Frame
import proofs.«116194_j70265664963195_2_alg».proof.Proof.Gen.ReferenceIdeal
import proofs.«116194_j70265664963195_2_alg».proof.Proof.Gen.Pre_finite_inputs
import proofs.«116194_j70265664963195_2_alg».proof.Proof.Gen.ReferenceIdeal.Run
import proofs.«116194_j70265664963195_2_alg».proof.Proof.Gen.ReferenceIdeal.Read
import proofs.«116194_j70265664963195_2_alg».proof.Proof.KFinal
import Idealize.ShloMosaic.Adequacy
import Idealize.ShloMosaic.Init

noncomputable section

namespace Cert.Proof

open Idealize.ShloMosaic Idealize.SL.Sem

/-- The reference's frame: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the same two results: the kernel's run ends at the
    reference's two stage functions of ITS arguments, the reference's run at the same functions of its own. -/
theorem algebraic : Cert.algebraic_KernelIdeal_ReferenceIdeal := by
  intro m ρ m' ρ' _ hagree
  refine ⟨_, _, Cert.KernelIdeal.Final.run m ρ, ?_⟩
  refine (θ_run Cert.ReferenceIdeal.defs _ _).mono (fun _ h c => ?_) (Cert.ReferenceIdeal.Value.run (F := Ideal) m' ρ')
  obtain ⟨g0, g1, g2, g3, g4, g5, g6, g7, g8, g9, g10, g11, g12⟩ := hagree c
  refine ⟨(h c).1.trans ?_, (h c).2.1.trans ?_, (h c).2.2⟩
  · rw [Cert.ReferenceIdeal.Read.val_main_v57_eq, g0, g1, g2, g3, g4, g5, g6, g7, g8, g9, g10]
  · rw [Cert.ReferenceIdeal.Read.val_main_v62_eq, g0, g1, g2, g3, g4, g5, g6, g7, g8, g11, g12]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
